-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x512 : Shape := ⟨2, ![256, 512]⟩
abbrev S512x128x16 : Shape := ⟨3, ![512, 128, 16]⟩
abbrev S_ : Shape := ⟨0, ![]⟩

class Facts : Prop where
  bcast_S_S256x512 : S_.BroadcastsInDim S256x512 (![] : Fin 0 → Fin S256x512.rank)
  reducesTo_S256x512_S_d0_1 : S256x512.ReducesTo [0, 1] S_
  h_S_ : 0 < S_.numel
  bcast_S_S512x128x16 : S_.BroadcastsInDim S512x128x16 (![] : Fin 0 → Fin S512x128x16.rank)
  reducesTo_S512x128x16_S_d0_1_2 : S512x128x16.ReducesTo [0, 1, 2] S_

variable [Facts]

def fn {F : FTy → Type} [FloatOps F] (main_arg0 : FVec F S256x512 .f32) (main_arg1 : FVec F S512x128x16 .f32) : IVec S_ 1 :=
  let main_v0 : FVec F S256x512 .f32 := Host.absf main_arg0
  let main_cst : FVec F S_ .f32 := constant S_ .f32 0x7F800000#32
  let main_v1 : FVec F S256x512 .f32 := broadcastInDim S256x512 ![] bcast_S_S256x512 main_cst
  let main_v2 : IVec S256x512 1 := cmpf .olt main_v0 main_v1
  let main_c : IVec S_ 1 := constantI S_ 1 1#1
  let main_v3 : IVec S_ 1 := (fun x v => Host.reduce IntOp.andi x v reducesTo_S256x512_S_d0_1 h_S_) main_v2 main_c
  let main_v4 : FVec F S512x128x16 .f32 := Host.absf main_arg1
  let main_cst_0 : FVec F S_ .f32 := constant S_ .f32 0x7F800000#32
  let main_v5 : FVec F S512x128x16 .f32 := broadcastInDim S512x128x16 ![] bcast_S_S512x128x16 main_cst_0
  let main_v6 : IVec S512x128x16 1 := cmpf .olt main_v4 main_v5
  let main_c_1 : IVec S_ 1 := constantI S_ 1 1#1
  let main_v7 : IVec S_ 1 := (fun x v => Host.reduce IntOp.andi x v reducesTo_S512x128x16_S_d0_1_2 h_S_) main_v6 main_c_1
  let main_v8 : IVec S_ 1 := andi main_v3 main_v7
  main_v8
-- ==== Kernel.lean ====
abbrev S256x512 : Shape := ⟨2, ![256, 512]⟩
abbrev S512x128x16 : Shape := ⟨3, ![512, 128, 16]⟩
abbrev S512x16x128 : Shape := ⟨3, ![512, 16, 128]⟩
abbrev S512x2048 : Shape := ⟨2, ![512, 2048]⟩
abbrev S256x2048 : Shape := ⟨2, ![256, 2048]⟩
abbrev S256x16x128 : Shape := ⟨3, ![256, 16, 128]⟩
abbrev S256x128 : Shape := ⟨2, ![256, 128]⟩
abbrev S64x16x128 : Shape := ⟨3, ![64, 16, 128]⟩
abbrev S64x128 : Shape := ⟨2, ![64, 128]⟩
abbrev S64x256x128 : Shape := ⟨3, ![64, 256, 128]⟩
abbrev S256x1x128 : Shape := ⟨3, ![256, 1, 128]⟩
abbrev S64x1x128 : Shape := ⟨3, ![64, 1, 128]⟩
abbrev S1x256x128 : Shape := ⟨3, ![1, 256, 128]⟩
abbrev S256x640 : Shape := ⟨2, ![256, 640]⟩

abbrev nBuf : Space → Nat
  | .hbm => 8
  | .vmem => 8
  | .smem => 0
  | _ => 0

abbrev bufTy : (tb : Table) → Fin (tcTables nBuf tb) → BufTy
  | .hbm, ⟨0, _⟩ => ⟨S256x512, .f32⟩
  | .hbm, ⟨1, _⟩ => ⟨S512x128x16, .f32⟩
  | .hbm, ⟨2, _⟩ => ⟨S512x16x128, .f32⟩
  | .hbm, ⟨3, _⟩ => ⟨S512x2048, .f32⟩
  | .hbm, ⟨4, _⟩ => ⟨S256x2048, .f32⟩
  | .hbm, ⟨5, _⟩ => ⟨S256x16x128, .f32⟩
  | .hbm, ⟨6, _⟩ => ⟨S256x128, .f32⟩
  | .hbm, ⟨7, _⟩ => ⟨S256x640, .f32⟩
  | .local _ .vmem, ⟨0, _⟩ => ⟨S256x512, .f32⟩
  | .local _ .vmem, ⟨1, _⟩ => ⟨S512x2048, .f32⟩
  | .local _ .vmem, ⟨2, _⟩ => ⟨S256x2048, .f32⟩
  | .local _ .vmem, ⟨3, _⟩ => ⟨S256x16x128, .f32⟩
  | .local _ .vmem, ⟨4, _⟩ => ⟨S64x16x128, .f32⟩
  | .local _ .vmem, ⟨5, _⟩ => ⟨S64x16x128, .f32⟩
  | .local _ .vmem, ⟨6, _⟩ => ⟨S64x128, .f32⟩
  | .local _ .vmem, ⟨7, _⟩ => ⟨S64x128, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc0_sem0_0 : DmaSem sig := 0
abbrev cc0_sem1_0 : DmaSem sig := 1
abbrev cc0_sem2_0 : DmaSem sig := 2
abbrev cc1_sem0_0 : DmaSem sig := 3
abbrev cc1_sem1_0 : DmaSem sig := 4
abbrev cc1_sem1_1 : DmaSem sig := 5
abbrev cc1_sem2_0 : DmaSem sig := 6
abbrev cc1_sem2_1 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S512x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := ⟨1, ![4], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 1 → Memref sig .tc .vmem S256x16x128 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 2 → Memref sig .tc .vmem S64x16x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S64x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  transposes_S512x128x16_S512x16x128_0_2_1 : S512x128x16.Transposes [0, 2, 1] S512x16x128
  shapeCasts_S512x16x128_S512x2048 : S512x16x128.ShapeCasts S512x2048
  inb_S256x512_S256x512_0_0 : ∀ a, (![0, 0] : Fin 2 → Nat) a + S256x512.size a ≤ S256x512.size a
  h_S256x512 : 0 < S256x512.numel
  bitsLt_bf16_f32 : FTy.bits .bf16 < FTy.bits .f32
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S256x2048_S256x2048_0_0 : ∀ a, (![0, 0] : Fin 2 → Nat) a + S256x2048.size a ≤ S256x2048.size a
  h_S256x2048 : 0 < S256x2048.numel
  shapeCasts_S256x2048_S256x16x128 : S256x2048.ShapeCasts S256x16x128
  inb_S256x16x128_S256x16x128_0_0_0 : ∀ a, (![0, 0, 0] : Fin 3 → Nat) a + S256x16x128.size a ≤ S256x16x128.size a
  h_S256x16x128 : 0 < S256x16x128.numel
  shapeCasts_S256x16x128_S256x16x128 : S256x16x128.ShapeCasts S256x16x128
  inb_S64x16x128_S64x16x128_0_0_0 : ∀ a, (![0, 0, 0] : Fin 3 → Nat) a + S64x16x128.size a ≤ S64x16x128.size a
  h_S64x16x128 : 0 < S64x16x128.numel
  shapeCasts_S64x16x128_S64x16x128 : S64x16x128.ShapeCasts S64x16x128
  slices_S256x16x128_o0_0_0_S256x1x128 : S256x16x128.Slices ![0, 0, 0] S256x1x128
  shapeCasts_S256x1x128_S256x128 : S256x1x128.ShapeCasts S256x128
  slices_S64x16x128_o0_0_0_S64x1x128 : S64x16x128.Slices ![0, 0, 0] S64x1x128
  shapeCasts_S64x1x128_S64x128 : S64x1x128.ShapeCasts S64x128
  shapeCasts_S64x128_S64x1x128 : S64x128.ShapeCasts S64x1x128
  shapeCasts_S256x128_S1x256x128 : S256x128.ShapeCasts S1x256x128
  broadcasts_S64x1x128_S64x256x128 : S64x1x128.Broadcasts S64x256x128
  broadcasts_S1x256x128_S64x256x128 : S1x256x128.Broadcasts S64x256x128
  slices_S256x16x128_o0_1_0_S256x1x128 : S256x16x128.Slices ![0, 1, 0] S256x1x128
  slices_S64x16x128_o0_1_0_S64x1x128 : S64x16x128.Slices ![0, 1, 0] S64x1x128
  slices_S256x16x128_o0_2_0_S256x1x128 : S256x16x128.Slices ![0, 2, 0] S256x1x128
  slices_S64x16x128_o0_2_0_S64x1x128 : S64x16x128.Slices ![0, 2, 0] S64x1x128
  slices_S256x16x128_o0_3_0_S256x1x128 : S256x16x128.Slices ![0, 3, 0] S256x1x128
  slices_S64x16x128_o0_3_0_S64x1x128 : S64x16x128.Slices ![0, 3, 0] S64x1x128
  slices_S256x16x128_o0_4_0_S256x1x128 : S256x16x128.Slices ![0, 4, 0] S256x1x128
  slices_S64x16x128_o0_4_0_S64x1x128 : S64x16x128.Slices ![0, 4, 0] S64x1x128
  slices_S256x16x128_o0_5_0_S256x1x128 : S256x16x128.Slices ![0, 5, 0] S256x1x128
  slices_S64x16x128_o0_5_0_S64x1x128 : S64x16x128.Slices ![0, 5, 0] S64x1x128
  slices_S256x16x128_o0_6_0_S256x1x128 : S256x16x128.Slices ![0, 6, 0] S256x1x128
  slices_S64x16x128_o0_6_0_S64x1x128 : S64x16x128.Slices ![0, 6, 0] S64x1x128
  slices_S256x16x128_o0_7_0_S256x1x128 : S256x16x128.Slices ![0, 7, 0] S256x1x128
  slices_S64x16x128_o0_7_0_S64x1x128 : S64x16x128.Slices ![0, 7, 0] S64x1x128
  slices_S256x16x128_o0_8_0_S256x1x128 : S256x16x128.Slices ![0, 8, 0] S256x1x128
  slices_S64x16x128_o0_8_0_S64x1x128 : S64x16x128.Slices ![0, 8, 0] S64x1x128
  slices_S256x16x128_o0_9_0_S256x1x128 : S256x16x128.Slices ![0, 9, 0] S256x1x128
  slices_S64x16x128_o0_9_0_S64x1x128 : S64x16x128.Slices ![0, 9, 0] S64x1x128
  slices_S256x16x128_o0_10_0_S256x1x128 : S256x16x128.Slices ![0, 10, 0] S256x1x128
  slices_S64x16x128_o0_10_0_S64x1x128 : S64x16x128.Slices ![0, 10, 0] S64x1x128
  slices_S256x16x128_o0_11_0_S256x1x128 : S256x16x128.Slices ![0, 11, 0] S256x1x128
  slices_S64x16x128_o0_11_0_S64x1x128 : S64x16x128.Slices ![0, 11, 0] S64x1x128
  slices_S256x16x128_o0_12_0_S256x1x128 : S256x16x128.Slices ![0, 12, 0] S256x1x128
  slices_S64x16x128_o0_12_0_S64x1x128 : S64x16x128.Slices ![0, 12, 0] S64x1x128
  slices_S256x16x128_o0_13_0_S256x1x128 : S256x16x128.Slices ![0, 13, 0] S256x1x128
  slices_S64x16x128_o0_13_0_S64x1x128 : S64x16x128.Slices ![0, 13, 0] S64x1x128
  slices_S256x16x128_o0_14_0_S256x1x128 : S256x16x128.Slices ![0, 14, 0] S256x1x128
  slices_S64x16x128_o0_14_0_S64x1x128 : S64x16x128.Slices ![0, 14, 0] S64x1x128
  slices_S256x16x128_o0_15_0_S256x1x128 : S256x16x128.Slices ![0, 15, 0] S256x1x128
  slices_S64x16x128_o0_15_0_S64x1x128 : S64x16x128.Slices ![0, 15, 0] S64x1x128
  reduces_S64x256x128_S64x128 : S64x256x128.Reduces [1] S64x128
  inb_S64x128_S64x128_0_0 : ∀ a, (![0, 0] : Fin 2 → Nat) a + S64x128.size a ≤ S64x128.size a
  h_S64x128 : 0 < S64x128.numel
  concatenates_S256x512_S256x128_S256x640_d1 : Shape.Concatenates [S256x512, S256x128] S256x640 1
  dot_S256x512_S512x2048_S256x2048_1_0_0_1_n_n_wf : DotDims.WF S256x512 S512x2048 S256x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S256x512.size a
  hwx0_0 : ∀ i : grid0.Coords, EltTy.bits .f32 = 32 ∨ (Rect.block (s := S256x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x2048.size a ≤ S512x2048.size a
  hwx0_1 : ∀ i : grid0.Coords, EltTy.bits .f32 = 32 ∨ (Rect.block (s := S512x2048) S512x2048.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x2048.size a ≤ S256x2048.size a
  hwx0_2 : ∀ i : grid0.Coords, EltTy.bits .f32 = 32 ∨ (Rect.block (s := S256x2048) S256x2048.size (cc0_transform_2 i) (hinb0_2 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S256x16x128.size a ≤ S256x16x128.size a
  hwx1_0 : ∀ i : grid1.Coords, EltTy.bits .f32 = 32 ∨ (Rect.block (s := S256x16x128) S256x16x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S64x16x128.size a ≤ S256x16x128.size a
  hwx1_1 : ∀ i : grid1.Coords, EltTy.bits .f32 = 32 ∨ (Rect.block (s := S256x16x128) S64x16x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S256x128.size a
  hwx1_2 : ∀ i : grid1.Coords, EltTy.bits .f32 = 32 ∨ (Rect.block (s := S256x128) S64x128.size (cc1_transform_2 i) (hinb1_2 i)).WholeWords (EltTy.packing .f32)

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

abbrev win0_0 : Pipeline.Window sig grid0 :=
  Pipeline.Window.ofSpec (Memref.whole main_arg0) S256x512.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x2048.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x2048.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v3) S256x16x128.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_v3) S64x16x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v4) S64x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S256x512 : Shape := ⟨2, ![256, 512]⟩
abbrev S512x128x16 : Shape := ⟨3, ![512, 128, 16]⟩
abbrev S512x2048 : Shape := ⟨2, ![512, 2048]⟩
abbrev S256x2048 : Shape := ⟨2, ![256, 2048]⟩
abbrev S256x128x16 : Shape := ⟨3, ![256, 128, 16]⟩
abbrev S1x256x128x16 : Shape := ⟨4, ![1, 256, 128, 16]⟩
abbrev S256x1x128x16 : Shape := ⟨4, ![256, 1, 128, 16]⟩
abbrev S256x256x128x16 : Shape := ⟨4, ![256, 256, 128, 16]⟩
abbrev S_ : Shape := ⟨0, ![]⟩
abbrev S256x256x128 : Shape := ⟨3, ![256, 256, 128]⟩
abbrev S256x128 : Shape := ⟨2, ![256, 128]⟩
abbrev S256x640 : Shape := ⟨2, ![256, 640]⟩

abbrev nBuf : Space → Nat
  | .hbm => 18
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S512x128x16, .f32⟩
  | .hbm, ⟨2, _⟩ => ⟨S512x2048, .f32⟩
  | .hbm, ⟨3, _⟩ => ⟨S256x2048, .f32⟩
  | .hbm, ⟨4, _⟩ => ⟨S256x128x16, .f32⟩
  | .hbm, ⟨5, _⟩ => ⟨S1x256x128x16, .f32⟩
  | .hbm, ⟨6, _⟩ => ⟨S256x1x128x16, .f32⟩
  | .hbm, ⟨7, _⟩ => ⟨S256x256x128x16, .f32⟩
  | .hbm, ⟨8, _⟩ => ⟨S256x256x128x16, .f32⟩
  | .hbm, ⟨9, _⟩ => ⟨S256x256x128x16, .f32⟩
  | .hbm, ⟨10, _⟩ => ⟨S256x256x128x16, .f32⟩
  | .hbm, ⟨11, _⟩ => ⟨S_, .f32⟩
  | .hbm, ⟨12, _⟩ => ⟨S256x256x128, .f32⟩
  | .hbm, ⟨13, _⟩ => ⟨S256x256x128, .f32⟩
  | .hbm, ⟨14, _⟩ => ⟨S256x256x128, .f32⟩
  | .hbm, ⟨15, _⟩ => ⟨S_, .f32⟩
  | .hbm, ⟨16, _⟩ => ⟨S256x128, .f32⟩
  | .hbm, ⟨17, _⟩ => ⟨S256x640, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_cst : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  shapeCasts_S512x128x16_S512x2048 : S512x128x16.ShapeCasts S512x2048
  shapeCasts_S256x2048_S256x128x16 : S256x2048.ShapeCasts S256x128x16
  bcast_S256x128x16_S1x256x128x16_1_2_3 : S256x128x16.BroadcastsInDim S1x256x128x16 (![1, 2, 3] : Fin 3 → Fin S1x256x128x16.rank)
  bcast_S256x128x16_S256x1x128x16_0_2_3 : S256x128x16.BroadcastsInDim S256x1x128x16 (![0, 2, 3] : Fin 3 → Fin S256x1x128x16.rank)
  bcast_S1x256x128x16_S256x256x128x16_0_1_2_3 : S1x256x128x16.BroadcastsInDim S256x256x128x16 (![0, 1, 2, 3] : Fin 4 → Fin S256x256x128x16.rank)
  bcast_S256x1x128x16_S256x256x128x16_0_1_2_3 : S256x1x128x16.BroadcastsInDim S256x256x128x16 (![0, 1, 2, 3] : Fin 4 → Fin S256x256x128x16.rank)
  reducesTo_S256x256x128x16_S256x256x128_d3 : S256x256x128x16.ReducesTo [3] S256x256x128
  h_S_ : 0 < S_.numel
  reducesTo_S256x256x128_S256x128_d0 : S256x256x128.ReducesTo [0] S256x128
  concatenates_S256x512_S256x128_S256x640_d1 : Shape.Concatenates [S256x512, S256x128] S256x640 1
  dot_S256x512_S512x2048_S256x2048_1_0_0_1_n_n_wf : DotDims.WF S256x512 S512x2048 S256x2048 [1] [0] [0] [1] [] []

variable [Facts₀]

def dot_S256x512_S512x2048_S256x2048_1_0_0_1_n_n : DotDims S256x512 S512x2048 S256x2048 where
  lhsContracting := [1]
  rhsContracting := [0]
  lhsNonContracting := [0]
  rhsNonContracting := [1]
  lhsBatch := []
  rhsBatch := []
  wf := dot_S256x512_S512x2048_S256x2048_1_0_0_1_n_n_wf

class Facts : Prop extends Facts₀ where

variable [Facts]
-- ==== Proof.KPayloads.lean ====
/-
  What each kernel body stores, as ONE function of the blocks it loads, at any float instance.

  The first body stores the matrix product of its two loaded blocks.  The second body loads the whole table array
  (all 256 rows) and a block of 64 rows of the same array, and stores, for each of the 64 rows and each channel, the
  sum over the 256 rows of exp (0 - (the running sum, column by column, of the absolute differences)).
-/
import proofs.«159068_j12850542149933_1_alg».proof.Proof.Gen.Kernel.Skeleton

noncomputable section

namespace Cert.Kernel.Hand

open Idealize.ShloMosaic Cert.Kernel Cert.Kernel.Gen

variable {F : FTy → Type} [FloatOps F] [Cert.Kernel.Facts]

/-- The product body's stored block from its two loaded blocks. -/
def pay0 (v0 : Vec F S256x512 .f32) (v2 : Vec F S512x2048 .f32) : FVec F S256x2048 .f32 := k0_pay1 v0 v2

/-- The pairwise body's stored block from the whole table array `v0` and the 64-row block `v2`: the sixteen
    columns' contributions accumulated in three stretches, then the exponential and the sum over the 256 rows. -/
def pay1 (v0 : Vec F S256x16x128 .f32) (v2 : Vec F S64x16x128 .f32) : FVec F S64x128 .f32 :=
  k1_pay1 (k1_pay3 v2)
    (k1_pay10 (k1_pay2 v0) (k1_pay3 v2)
      (k1_pay7 (k1_pay2 v0) (k1_pay3 v2) (k1_pay4 v0 v2) (k1_pay5 v0) (k1_pay6 v2)) (k1_pay8 (k1_pay3 v2)) (k1_pay9 (k1_pay2 v0)))
    (k1_pay11 (k1_pay2 v0))

end Cert.Kernel.Hand

end
-- ==== Proof.KRegion0.lean ====
/-
  The first kernel region (the matrix product) at the contents `V` the region finds in the core's buffers.

  The grid has one point.  Each of the three windows is the whole of its array: the two inputs are fetched into
  their staging buffers, the body loads both, stores their product over the whole output buffer, and the output is
  written back.  So after the body the inputs' buffers hold their blocks and the output's buffer holds the product
  of the two blocks.
-/
import proofs.«159068_j12850542149933_1_alg».proof.Proof.Gen.Kernel.Launch
import proofs.«159068_j12850542149933_1_alg».proof.Proof.Gen.Kernel.Skeleton
import proofs.«159068_j12850542149933_1_alg».proof.Proof.Gen.Kernel.Points
import proofs.«159068_j12850542149933_1_alg».proof.Proof.KPayloads
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    region's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_0 : Rect S256x512 := Rect.unit (s := S256x512) ![0, 0] S256x512.size Facts₀.inb_S256x512_S256x512_0_0
abbrev r0_1 : Rect S512x2048 := Rect.unit (s := S512x2048) ![0, 0] S512x2048.size Facts₀.inb_S512x2048_S512x2048_0_0
abbrev r0_2 : Rect S256x2048 := Rect.unit (s := S256x2048) ![0, 0] S256x2048.size Facts₀.inb_S256x2048_S256x2048_0_0

/-- The output window's staging buffer after the body: one store, of the product of the two loaded blocks, over
    the whole buffer. -/
def out0_2 (x0 : Vec F S256x512 .f32) (x1 : Vec F S512x2048 .f32) : Vec F S256x2048 .f32 :=
  View.canon [⟨r0_2, pay0 (View.ld x0 r0_0) (View.ld x1 r0_1)⟩]

/-- The one store covers the buffer. -/
theorem cover0_2 (p0 : Vec F S256x2048 .f32) (y : S256x2048.Idx) :
    ∃ pc ∈ ([⟨r0_2, p0⟩] : List (View.Piece (Elt F) S256x2048 .f32)), y ∈ pc.1.set :=
  View.cover_of_tiled [⟨r0_2, p0⟩] S256x2048.size (by rfl) y

/-! ## The body's triple -/

set_option maxHeartbeats 1000000 in
/-- The product body on whole staging memrefs — the inputs' at read contents `x0`, `x1`, the output's at anything —
    runs to the continuation holding the inputs' as they were and the output's at the product. -/
theorem sound_kernel0 (c : Dev nD) (E : Set ℕ) (i : grid0.Coords) (arg1 : Memref sig .tc .vmem S256x512 .f32) (harg1 : arg1.IsWhole)
    (arg2 : Memref sig .tc .vmem S512x2048 .f32) (harg2 : arg2.IsWhole) (arg3 : Memref sig .tc .vmem S256x2048 .f32) (harg3 : arg3.IsWhole)
    (x0 : Vec F S256x512 .f32) (x1 : Vec F S512x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first pipeline on core `c`: the arrays as the region finds them; after the body each
    input's buffer at its block and the output's at the product of the two input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.KRegion1.lean ====
/-
  The second kernel region (the pairwise features) at the contents `V` the region finds in the core's buffers.

  The grid has four points.  The first input window is the whole table array (all 256 rows), fetched once; the
  second input window is the block of 64 rows numbered by the point, of the SAME array; the output window is the
  block of 64 rows of the feature array numbered by the point.  The body loads both inputs and stores, over the
  whole output buffer, the features of its 64 rows against all 256 rows.  Since two windows stand on one array, the
  array's one full share is dealt between them: the left half to the first, the right half to the second.
-/
import proofs.«159068_j12850542149933_1_alg».proof.Proof.KRegion0

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-array window's buffer holds the array at every point, fetched there (the first point) or not (the
    block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The 64-row window's buffer holds the point's block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its buffer -/

abbrev r1_0 : Rect S256x16x128 := Rect.unit (s := S256x16x128) ![0, 0, 0] S256x16x128.size Facts₀.inb_S256x16x128_S256x16x128_0_0_0
abbrev r1_1 : Rect S64x16x128 := Rect.unit (s := S64x16x128) ![0, 0, 0] S64x16x128.size Facts₀.inb_S64x16x128_S64x16x128_0_0_0
abbrev r1_2 : Rect S64x128 := Rect.unit (s := S64x128) ![0, 0] S64x128.size Facts₀.inb_S64x128_S64x128_0_0

/-- The output window's staging buffer after the body: one store, of the features of the 64-row block against the
    whole array, over the whole buffer. -/
def out1_2 (x0 : Vec F S256x16x128 .f32) (x1 : Vec F S64x16x128 .f32) : Vec F S64x128 .f32 :=
  View.canon [⟨r1_2, pay1 (View.ld x0 r1_0) (View.ld x1 r1_1)⟩]

/-- The one store covers the buffer. -/
theorem cover1_2 (p0 : Vec F S64x128 .f32) (y : S64x128.Idx) :
    ∃ pc ∈ ([⟨r1_2, p0⟩] : List (View.Piece (Elt F) S64x128 .f32)), y ∈ pc.1.set :=
  View.cover_of_tiled [⟨r1_2, p0⟩] S64x128.size (by rfl) y

/-! ## The body's triple -/

set_option maxHeartbeats 2000000 in
/-- The pairwise body on whole staging memrefs — the inputs' at read contents `x0`, `x1`, the output's at anything —
    runs, through its three stretches, to the continuation holding the inputs' as they were and the output's at the
    features. -/
theorem sound_kernel1 (c : Dev nD) (E : Set ℕ) (i : grid1.Coords) (arg1 : Memref sig .tc .vmem S256x16x128 .f32) (harg1 : arg1.IsWhole)
    (arg2 : Memref sig .tc .vmem S64x16x128 .f32) (harg2 : arg2.IsWhole) (arg3 : Memref sig .tc .vmem S64x128 .f32) (harg3 : arg3.IsWhole)
    (x0 : Vec F S256x16x128 .f32) (x1 : Vec F S64x16x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__pairwise_kernel i arg1 harg1 arg2 harg2 arg3 harg3) K := by
  simp only [cc1__pairwise_kernel_eq_skeleton]; unfold cc1__pairwise_kernel_skel
  simp only [k1_part1_eq_skeleton]; unfold k1_part1_skel
  simp only [k1_part2_eq_skeleton]; unfold k1_part2_skel
  simp only [k1_part3_eq_skeleton]; unfold k1_part3_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _)

/-! ## The pipeline's proof data -/

/-- The proof data of the second pipeline on core `c`: the arrays as the region finds them; after the body each
    input's buffer at its block and the output's at the features of the two input blocks; the invariant the scoped
    rest and the generator register, untouched; nothing owed; the shared array's full share dealt in halves between
    the two input windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.KRun.lean ====
/-
  The whole run of the program: two host stretches, the product region, one host stretch, the pairwise region, one
  host stretch — with the contents of every unscoped buffer named at each boundary.

  The contents are a fold from the launch memory: a host stretch applies its operations; the product region leaves
  its output array at what its one write-back leaves and everything else as entered; the pairwise region leaves the
  feature array at what its four write-backs leave and everything else as entered (its two input windows read one
  array, whose full share is split in halves at entry and joined again at exit).
-/
import proofs.«159068_j12850542149933_1_alg».proof.Proof.KRegion1
import proofs.«159068_j12850542149933_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (the product region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the product region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the middle host stretch (the pairwise region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the pairwise region's exit: the feature array at what the four write-backs leave, every other buffer as
    entered (the region's two input windows never write their array). -/
def W4 (c : Dev nD) : Valuation τ sig (Elt F) :=
  Function.update (W3 m c) (Proc.devRef .tc main_v4) ((dat1 (V3 m) c).arrAt 2 cfg1.N)
abbrev V4 : (c : Dev nD) → (b : Ref sig .tc) → Buf (Elt F) ((c : Thread nD τ).loc b) := fun c b => W4 m c b
theorem W4_out (c : Dev nD) : W4 m c (Proc.devRef .tc main_v4) = (dat1 (V3 m) c).arrAt 2 cfg1.N := by
  unfold W4; exact Function.update_self ..
theorem W4_of_ne (c : Dev nD) (b : Ref sig .tc) (hb : b ≠ main_v4) :
    W4 m c (Proc.devRef .tc b) = W3 m c (Proc.devRef .tc b) := by
  unfold W4; exact Function.update_of_ne (StableHlo.devRef_ne_of_ne hb) ..
/-- After the last host stretch: the end. -/
abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the end's contents, the generator register at
    some state. -/
abbrev Tₙ (c : Dev nD) : sProp 𝕄 := iprop(StableHlo.held (c : Thread nD τ) (Pipeline.ucRefs τ sig) (W5 m c) ∗ ∃ r, prngReg c r)

/-! ## The product region as a segment -/

set_option backward.isDefEq.respectTransparency.types false in
/-- Entered from every unscoped buffer at `W1`, left at `W2`: its arrays split out of the unscoped buffers and put
    back at the exit contents; the generator register into the invariant and out; nothing owed; no semaphore of the
    kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The pairwise region: the shared array's full share dealt in halves and joined again -/

/-- A whole buffer at the full share is its two half shares. -/
theorem full_halves (ℓ : Loc nD τ sig) (f : Buf (Elt F) ℓ) :
    (ℓ ↦{fullShare} f : sProp 𝕄) = iprop((ℓ ↦{fullShare.left} f) ∗ (ℓ ↦{fullShare.right} f)) := by
  have h : (ℓ ↦{fullShare} f : sProp 𝕄) ⊣⊢ iprop((ℓ ↦{fullShare.left} f) ∗ (ℓ ↦{fullShare.right} f)) :=
    Region.is_share (PosShare.mem_left_op_right fullShare)
  exact Idealize.SL.BI.Entails.antisymm h.mp h.mpr

/-- The pairwise pipeline's arrays, at contents `f3` on both windows of the shared array and `f4` on the feature
    array: the shared array's left half, its right half, and the feature array whole. -/
theorem arrays1_eq (V : (c : Dev nD) → (b : Ref sig .tc) → Buf (Elt F) ((c : Thread nD τ).loc b)) (c : Dev nD)
    (A : (w : Fin cfg1.W) → Buf (Elt F) ((cfg1.win w).arr.view.loc (c.tc : Thread nD τ)))
    (f3 : Buf (Elt F) ((c : Thread nD τ).loc main_v3)) (f4 : Buf (Elt F) ((c : Thread nD τ).loc main_v4))
    (h0 : A 0 = f3) (h1 : A 1 = f3) (h2 : A 2 = f4) :
    ((dat1 V c).arrays A : sProp 𝕄)
      = iprop((((c : Thread nD τ).loc main_v3) ↦{fullShare.left} f3) ∗ (((c : Thread nD τ).loc main_v3) ↦{fullShare.right} f3)
          ∗ (((c : Thread nD τ).loc main_v4) ↦{fullShare} f4)) := by
  unfold Dat.arrays
  rw [bigSep_W1]
  rw [(arr_whole1 0).set_eq_univ, (arr_whole1 2).set_eq_univ]
  rw [show (dat1 V c).share 0 = fullShare.left from rfl, show (dat1 V c).share 1 = fullShare.right from rfl, show (dat1 V c).share 2 = fullShare from rfl]
  rw [h0, h1, h2]

/-- The two distinct buffers behind the pairwise pipeline's three windows. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v3) ↦{fullShare} V' main_v3) ∗ (((c : Thread nD τ).loc main_v4) ↦{fullShare} V' main_v4)) := by
  unfold Pipeline.arrBufs
  rw [show (Finset.univ.image (Pipeline.arrRef spec1)) = insert main_v3 {main_v4} from by decide, bigSep_insert (by decide), bigSep_singleton]
  rfl

/-- A core's unscoped buffers are the two buffers behind the pairwise pipeline's windows and the rest. -/
theorem split1 (c : Dev nD) (V' : (b : Ref sig .tc) → Buf (Elt F) ((c : Thread nD τ).loc b)) :
    (unscopedBufs (Ix := Unit) (Name := ℕ) (U := UR sig nD τ) (Lvl := ℕ) c V' : sProp 𝕄)
      = iprop((Pipeline.arrBufs spec1 c V' : sProp 𝕄) ∗ Pipeline.unscopedRest spec1 c V') :=
  Pipeline.PerCore.unscopedBufs_split₀ (fun _ : Dev nD => cfgs) 1 c winFacts₀1.arr_unscoped V'

/-- ENTRY: every unscoped buffer at `W3` is the pipeline's arrays at their entry contents — the shared array's full
    share split between its two windows — beside the buffers that bypass the region. -/
theorem entry1 (c : Dev nD) :
    (StableHlo.held (c : Thread nD τ) (Pipeline.ucRefs τ sig) (W3 m c) : sProp 𝕄)
      ⊢ iprop((dat1 (V3 m) c).arrays ((dat1 (V3 m) c).arrAt · 0)
          ∗ Pipeline.unscopedRest (Ix := Unit) (Name := ℕ) (U := UR sig nD τ) (Lvl := ℕ) spec1 c (V3 m c)) := by
  have h : (unscopedBufs (Ix := Unit) (Name := ℕ) (U := UR sig nD τ) (Lvl := ℕ) c (V3 m c) : sProp 𝕄)
      ⊢ iprop((dat1 (V3 m) c).arrays ((dat1 (V3 m) c).arrAt · 0)
          ∗ Pipeline.unscopedRest (Ix := Unit) (Name := ℕ) (U := UR sig nD τ) (Lvl := ℕ) spec1 c (V3 m c)) := by
    rw [split1 c (V3 m c), arrBufs1_eq,
      arrays1_eq (V3 m) c _ (V3 m c main_v3) (V3 m c main_v4) rfl rfl rfl, full_halves]
    iintro ⟨⟨⟨Hl, Hr⟩, Ho⟩, Hrest⟩
    isplitr [Hrest]
    · isplitl [Hl]; · iexact Hl
      isplitl [Hr]; · iexact Hr
      iexact Ho
    iexact Hrest
  rw [Pipeline.unscopedBufs_held] at h
  exact h

/-- EXIT: the pipeline's arrays at their final contents — the shared array unchanged on both windows, its halves
    joined — beside the bypassing buffers are every unscoped buffer at `W4`. -/
theorem exit1 (c : Dev nD) :
    iprop((dat1 (V3 m) c).arrays ((dat1 (V3 m) c).arrAt · cfg1.N)
        ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  have hrest : (Pipeline.unscopedRest (Ix := Unit) (Name := ℕ) (U := UR sig nD τ) (Lvl := ℕ) spec1 c (V4 m c) : sProp 𝕄)
      = Pipeline.unscopedRest spec1 c (V3 m c) := by
    unfold Pipeline.unscopedRest
    exact bigSep_congr fun b hb => by
      rw [show V4 m c b = V3 m c b from W4_of_ne m c b fun e => (Finset.mem_sdiff.mp hb).2 (e ▸ (by decide))]
  have h : iprop((dat1 (V3 m) c).arrays ((dat1 (V3 m) c).arrAt · cfg1.N)
        ∗ Pipeline.unscopedRest (Ix := Unit) (Name := ℕ) (U := UR sig nD τ) (Lvl := ℕ) spec1 c (V3 m c))
      ⊢ (unscopedBufs (Ix := Unit) (Name := ℕ) (U := UR sig nD τ) (Lvl := ℕ) c (V4 m c) : sProp 𝕄) := by
    rw [split1 c (V4 m c), arrBufs1_eq, hrest,
      show V4 m c main_v3 = V3 m c main_v3 from W4_of_ne m c main_v3 (by decide),
      show V4 m c main_v4 = (dat1 (V3 m) c).arrAt 2 cfg1.N from W4_out m c,
      arrays1_eq (V3 m) c _ (V3 m c main_v3) ((dat1 (V3 m) c).arrAt 2 cfg1.N)
        (((dat1 (V3 m) c).arrAt_in 0 rfl _).trans (A_eq1 (V3 m) c 0)) (((dat1 (V3 m) c).arrAt_in 1 rfl _).trans (A_eq1 (V3 m) c 1)) rfl,
      full_halves]
    iintro ⟨⟨Hl, Hr, Ho⟩, Hrest⟩
    isplitr [Hrest]
    · isplitr [Ho]
      · isplitl [Hl]; · iexact Hl
        iexact Hr
      iexact Ho
    iexact Hrest
  rw [Pipeline.unscopedBufs_held] at h
  exact h

/-- The same two, read at the proof data family's second member. -/
theorem entry1' (c : Dev nD) :
    (StableHlo.held (c : Thread nD τ) (Pipeline.ucRefs τ sig) (W3 m c) : sProp 𝕄)
      ⊢ iprop((pdats m 1 c).arrays ((pdats m 1 c).arrAt · 0)
          ∗ Pipeline.unscopedRest (Ix := Unit) (Name := ℕ) (U := UR sig nD τ) (Lvl := ℕ) spec1 c (V3 m c)) := entry1 m c
theorem exit1' (c : Dev nD) :
    iprop((pdats m 1 c).arrays ((pdats m 1 c).arrAt · cfg1.N)
        ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := exit1 m c

/-- The end of the chain: the last host stretch's state is the last thread state beside the core owing nothing. -/
theorem last_step (c : Dev nD) :
    iprop(StableHlo.held (c : Thread nD τ) (Pipeline.ucRefs τ sig) (W5 m c) ∗ R (F := F) c)
      ⊢ iprop(Tₙ m c ∗ ∃ W, owes (c : Thread nD τ) (0 : CellTallies nD τ sig Unit) W) := by
  iintro ⟨Hh, Hp, HO⟩
  isplitr [HO]
  · isplitl [Hh]; · iexact Hh
    iexact Hp
  iexact HO

/-! ## The pairwise region as a segment -/

set_option backward.isDefEq.respectTransparency.types false in
/-- Entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry1' m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1' m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- THE RUN, at any float instance: from any memory with zero counters every weakly fair execution of @main
    terminates, nothing faulting, and every unscoped buffer of every core ends at the end's contents `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_step m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.Kernel.Hand

end
-- ==== Proof.KEnd.lean ====
/-
  The contents at the end, read back.

  No host operation and no region writes an argument, so the fold at an argument's buffer walks back to the launch
  memory.  The result buffer is the last host operation's concatenation of the first argument with the feature array;
  the feature array is what the pairwise region's write-backs leave; the table array that region reads is the middle
  host stretch's reshape of the product region's output; the product region's right operand is the first host
  stretch's transposed and reshaped weight.
-/
import proofs.«159068_j12850542149933_1_alg».proof.Proof.KRun
import Idealize.ShloMosaic.Lib.StableHlo.Run

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The arguments end as launched -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

theorem W2_main_arg0 (c : Dev nD) : W2 m c (Proc.devRef .tc main_arg0) = W1 m c (Proc.devRef .tc main_arg0) :=
  (W2_arr m c 0).trans (((dat0 (V1 m) c).arrAt_in 0 rfl _).trans (A_eq0 (V1 m) c 0))

theorem W4_main_arg0 (c : Dev nD) : W4 m c (Proc.devRef .tc main_arg0) = m ((c : Thread nD τ).loc main_arg0) :=
  (W4_of_ne m c main_arg0 (by decide)).trans <| (W3_of m c main_arg0 (by decide)).trans <| (W2_main_arg0 m c).trans <|
    (W1_of m c main_arg0 (by decide)).trans rfl
theorem W5_main_arg0 (c : Dev nD) : W5 m c (Proc.devRef .tc main_arg0) = m ((c : Thread nD τ).loc main_arg0) :=
  (W5_of m c main_arg0 (by decide)).trans (W4_main_arg0 m c)
theorem W5_main_arg1 (c : Dev nD) : W5 m c (Proc.devRef .tc main_arg1) = m ((c : Thread nD τ).loc main_arg1) :=
  (W5_of m c main_arg1 (by decide)).trans <| (W4_of_ne m c main_arg1 (by decide)).trans <| (W3_of m c main_arg1 (by decide)).trans <|
    (W2_of_ne m c main_arg1 (by decide)).trans <| (W1_of m c main_arg1 (by decide)).trans rfl

/-! ## The arrays on the way, each as its operations' term -/

/-- The product region's left operand is the first argument as launched. -/
theorem V1_main_arg0 (c : Dev nD) : V1 m c main_arg0 = m ((c : Thread nD τ).loc main_arg0) :=
  (W1_of m c main_arg0 (by decide)).trans rfl

/-- The product region's right operand: the weight with its last two axes swapped, flattened to a matrix. -/
theorem V1_main_v1 (c : Dev nD) :
    (V1 m c main_v1 : (⟨S512x2048, .f32⟩ : BufTy).Contents (Elt F))
      = shapeCast S512x2048 (transpose S512x16x128 [0, 2, 1] (m ((c : Thread nD τ).loc main_arg1)) Facts₀.transposes_S512x128x16_S512x16x128_0_2_1)
          Facts₀.shapeCasts_S512x16x128_S512x2048 := by
  show StableHlo.after hostOps0 (W0 m c) (Proc.devRef .tc main_v1) = _
  after_results
  rfl

/-- The product region's output array after the region. -/
theorem W2_main_v2 (c : Dev nD) : W2 m c (Proc.devRef .tc main_v2) = (dat0 (V1 m) c).arrAt 2 cfg0.N := W2_arr m c 2

/-- The pairwise region's table array: the product's output reshaped to [256, 16, 128]. -/
theorem V3_main_v3 (c : Dev nD) :
    (V3 m c main_v3 : (⟨S256x16x128, .f32⟩ : BufTy).Contents (Elt F))
      = shapeCast S256x16x128 (W2 m c (Proc.devRef .tc main_v2) : (⟨S256x2048, .f32⟩ : BufTy).Contents (Elt F)) Facts₀.shapeCasts_S256x2048_S256x16x128 := by
  show StableHlo.after hostOps1 (W2 m c) (Proc.devRef .tc main_v3) = _
  after_results
  rfl

/-- The result: the first argument with the feature array appended along the second axis. -/
theorem W5_main_v5 (c : Dev nD) :
    (W5 m c (Proc.devRef .tc main_v5) : (⟨S256x640, .f32⟩ : BufTy).Contents (Elt F))
      = concatenate S256x640 1 [⟨S256x512, m ((c : Thread nD τ).loc main_arg0)⟩, ⟨S256x128, (dat1 (V3 m) c).arrAt 2 cfg1.N⟩]
          Facts₀.concatenates_S256x512_S256x128_S256x640_d1 := by
  rw [← W4_main_arg0 m c, ← W4_out m c]
  show StableHlo.after hostOps2 (W4 m c) (Proc.devRef .tc main_v5) = _
  after_results

end Cert.Kernel.Hand

end
-- ==== Proof.KIPayloads.lean ====
/-
  What each kernel body stores, as ONE function of the blocks it loads, at any float instance.

  The first body stores the matrix product of its two loaded blocks.  The second body loads the whole table array
  (all 256 rows) and a block of 64 rows of the same array, and stores, for each of the 64 rows and each channel, the
  sum over the 256 rows of exp (0 - (the running sum, column by column, of the absolute differences)).
-/
import proofs.«159068_j12850542149933_1_alg».proof.Proof.Gen.KernelIdeal.Skeleton

noncomputable section

namespace Cert.KernelIdeal.Hand

open Idealize.ShloMosaic Cert.KernelIdeal Cert.KernelIdeal.Gen

variable {F : FTy → Type} [FloatOps F] [Cert.KernelIdeal.Facts]

/-- The product body's stored block from its two loaded blocks. -/
def pay0 (v0 : Vec F S256x512 .f32) (v2 : Vec F S512x2048 .f32) : FVec F S256x2048 .f32 := k0_pay1 v0 v2

/-- The pairwise body's stored block from the whole table array `v0` and the 64-row block `v2`: the sixteen
    columns' contributions accumulated in three stretches, then the exponential and the sum over the 256 rows. -/
def pay1 (v0 : Vec F S256x16x128 .f32) (v2 : Vec F S64x16x128 .f32) : FVec F S64x128 .f32 :=
  k1_pay1 (k1_pay3 v2)
    (k1_pay10 (k1_pay2 v0) (k1_pay3 v2)
      (k1_pay7 (k1_pay2 v0) (k1_pay3 v2) (k1_pay4 v0 v2) (k1_pay5 v0) (k1_pay6 v2)) (k1_pay8 (k1_pay3 v2)) (k1_pay9 (k1_pay2 v0)))
    (k1_pay11 (k1_pay2 v0))

end Cert.KernelIdeal.Hand

end
-- ==== Proof.KIRegion0.lean ====
/-
  The first kernel region (the matrix product) at the contents `V` the region finds in the core's buffers.

  The grid has one point.  Each of the three windows is the whole of its array: the two inputs are fetched into
  their staging buffers, the body loads both, stores their product over the whole output buffer, and the output is
  written back.  So after the body the inputs' buffers hold their blocks and the output's buffer holds the product
  of the two blocks.
-/
import proofs.«159068_j12850542149933_1_alg».proof.Proof.Gen.KernelIdeal.Launch
import proofs.«159068_j12850542149933_1_alg».proof.Proof.Gen.KernelIdeal.Skeleton
import proofs.«159068_j12850542149933_1_alg».proof.Proof.Gen.KernelIdeal.Points
import proofs.«159068_j12850542149933_1_alg».proof.Proof.KIPayloads
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, for any proof data whose array is the
    region's and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each the whole of its buffer -/

abbrev r0_0 : Rect S256x512 := Rect.unit (s := S256x512) ![0, 0] S256x512.size Facts₀.inb_S256x512_S256x512_0_0
abbrev r0_1 : Rect S512x2048 := Rect.unit (s := S512x2048) ![0, 0] S512x2048.size Facts₀.inb_S512x2048_S512x2048_0_0
abbrev r0_2 : Rect S256x2048 := Rect.unit (s := S256x2048) ![0, 0] S256x2048.size Facts₀.inb_S256x2048_S256x2048_0_0

/-- The output window's staging buffer after the body: one store, of the product of the two loaded blocks, over
    the whole buffer. -/
def out0_2 (x0 : Vec F S256x512 .f32) (x1 : Vec F S512x2048 .f32) : Vec F S256x2048 .f32 :=
  View.canon [⟨r0_2, pay0 (View.ld x0 r0_0) (View.ld x1 r0_1)⟩]

/-- The one store covers the buffer. -/
theorem cover0_2 (p0 : Vec F S256x2048 .f32) (y : S256x2048.Idx) :
    ∃ pc ∈ ([⟨r0_2, p0⟩] : List (View.Piece (Elt F) S256x2048 .f32)), y ∈ pc.1.set :=
  View.cover_of_tiled [⟨r0_2, p0⟩] S256x2048.size (by rfl) y

/-! ## The body's triple -/

set_option maxHeartbeats 1000000 in
/-- The product body on whole staging memrefs — the inputs' at read contents `x0`, `x1`, the output's at anything —
    runs to the continuation holding the inputs' as they were and the output's at the product. -/
theorem sound_kernel0 (c : Dev nD) (E : Set ℕ) (i : grid0.Coords) (arg1 : Memref sig .tc .vmem S256x512 .f32) (harg1 : arg1.IsWhole)
    (arg2 : Memref sig .tc .vmem S512x2048 .f32) (harg2 : arg2.IsWhole) (arg3 : Memref sig .tc .vmem S256x2048 .f32) (harg3 : arg3.IsWhole)
    (x0 : Vec F S256x512 .f32) (x1 : Vec F S512x2048 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of the first pipeline on core `c`: the arrays as the region finds them; after the body each
    input's buffer at its block and the output's at the product of the two input blocks; the invariant the scoped
    rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the body's triple applies; the invariant and
    the core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KIRegion1.lean ====
/-
  The second kernel region (the pairwise features) at the contents `V` the region finds in the core's buffers.

  The grid has four points.  The first input window is the whole table array (all 256 rows), fetched once; the
  second input window is the block of 64 rows numbered by the point, of the SAME array; the output window is the
  block of 64 rows of the feature array numbered by the point.  The body loads both inputs and stores, over the
  whole output buffer, the features of its 64 rows against all 256 rows.  Since two windows stand on one array, the
  array's one full share is dealt between them: the left half to the first, the right half to the second.
-/
import proofs.«159068_j12850542149933_1_alg».proof.Proof.KIRegion0

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The whole-array window's buffer holds the array at every point, fetched there (the first point) or not (the
    block index never moves). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- The 64-row window's buffer holds the point's block at every point. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: each the whole of its buffer -/

abbrev r1_0 : Rect S256x16x128 := Rect.unit (s := S256x16x128) ![0, 0, 0] S256x16x128.size Facts₀.inb_S256x16x128_S256x16x128_0_0_0
abbrev r1_1 : Rect S64x16x128 := Rect.unit (s := S64x16x128) ![0, 0, 0] S64x16x128.size Facts₀.inb_S64x16x128_S64x16x128_0_0_0
abbrev r1_2 : Rect S64x128 := Rect.unit (s := S64x128) ![0, 0] S64x128.size Facts₀.inb_S64x128_S64x128_0_0

/-- The output window's staging buffer after the body: one store, of the features of the 64-row block against the
    whole array, over the whole buffer. -/
def out1_2 (x0 : Vec F S256x16x128 .f32) (x1 : Vec F S64x16x128 .f32) : Vec F S64x128 .f32 :=
  View.canon [⟨r1_2, pay1 (View.ld x0 r1_0) (View.ld x1 r1_1)⟩]

/-- The one store covers the buffer. -/
theorem cover1_2 (p0 : Vec F S64x128 .f32) (y : S64x128.Idx) :
    ∃ pc ∈ ([⟨r1_2, p0⟩] : List (View.Piece (Elt F) S64x128 .f32)), y ∈ pc.1.set :=
  View.cover_of_tiled [⟨r1_2, p0⟩] S64x128.size (by rfl) y

/-! ## The body's triple -/

set_option maxHeartbeats 2000000 in
/-- The pairwise body on whole staging memrefs — the inputs' at read contents `x0`, `x1`, the output's at anything —
    runs, through its three stretches, to the continuation holding the inputs' as they were and the output's at the
    features. -/
theorem sound_kernel1 (c : Dev nD) (E : Set ℕ) (i : grid1.Coords) (arg1 : Memref sig .tc .vmem S256x16x128 .f32) (harg1 : arg1.IsWhole)
    (arg2 : Memref sig .tc .vmem S64x16x128 .f32) (harg2 : arg2.IsWhole) (arg3 : Memref sig .tc .vmem S64x128 .f32) (harg3 : arg3.IsWhole)
    (x0 : Vec F S256x16x128 .f32) (x1 : Vec F S64x16x128 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out1_2 x0 x1)) -∗ K ⟨⟩))
      ⊢ wp frame (wpE (defs₀ (F := F)) Variants.none c none) E (cc1__pairwise_kernel i arg1 harg1 arg2 harg2 arg3 harg3) K := by
  simp only [cc1__pairwise_kernel_eq_skeleton]; unfold cc1__pairwise_kernel_skel
  simp only [k1_part1_eq_skeleton]; unfold k1_part1_skel
  simp only [k1_part2_eq_skeleton]; unfold k1_part2_skel
  simp only [k1_part3_eq_skeleton]; unfold k1_part3_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  try dsimp only
  exact View.read_writes_eq_canon _ _ _ (cover1_2 _)

/-! ## The pipeline's proof data -/

/-- The proof data of the second pipeline on core `c`: the arrays as the region finds them; after the body each
    input's buffer at its block and the output's at the features of the two input blocks; the invariant the scoped
    rest and the generator register, untouched; nothing owed; the shared array's full share dealt in halves between
    the two input windows. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = out1_2 (iblk1 V c 0 t) (iblk1 V c 1 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ _ _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KIRun.lean ====
/-
  The whole run of the program: two host stretches, the product region, one host stretch, the pairwise region, one
  host stretch — with the contents of every unscoped buffer named at each boundary.

  The contents are a fold from the launch memory: a host stretch applies its operations; the product region leaves
  its output array at what its one write-back leaves and everything else as entered; the pairwise region leaves the
  feature array at what its four write-backs leave and everything else as entered (its two input windows read one
  array, whose full share is split in halves at entry and joined again at exit).
-/
import proofs.«159068_j12850542149933_1_alg».proof.Proof.KIRegion1
import proofs.«159068_j12850542149933_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev W0 : Dev nD → Valuation τ sig (Elt F) := fun c b => m (c, b)
/-- After the first host stretch (the product region's entry). -/
abbrev W1 : Dev nD → Valuation τ sig (Elt F) := fun c => StableHlo.after hostOps0 (W0 m c)
abbrev V1 : (c : Dev nD) → (b : Ref sig .tc) → Buf (Elt F) ((c : Thread nD τ).loc b) := fun c b => W1 m c b
/-- At the product region's exit: its arrays at what the pipeline leaves, every other buffer as entered. -/
def W2 (c : Dev nD) : Valuation τ sig (Elt F) :=
  Pipeline.withArrays spec0 c (W1 m c) fun w => (dat0 (V1 m) c).arrAt w cfg0.N
theorem W2_arr (c : Dev nD) (w : Fin cfg0.W) :
    W2 m c (Proc.devRef .tc (Pipeline.arrRef spec0 w)) = (dat0 (V1 m) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
abbrev V2 : (c : Dev nD) → (b : Ref sig .tc) → Buf (Elt F) ((c : Thread nD τ).loc b) := fun c b => W2 m c b
theorem hF0 (c : Dev nD) (w : Fin cfg0.W) : (dat0 (V1 m) c).arrAt w cfg0.N = V2 m c (Pipeline.arrRef spec0 w) :=
  (W2_arr m c w).symm
theorem hrest0 (c : Dev nD) : ∀ b, b ∉ Finset.univ.image (Pipeline.arrRef spec0) → V2 m c b = V1 m c b :=
  fun b hb => W2_of_ne m c b fun w e => hb (Finset.mem_image.mpr ⟨w, Finset.mem_univ _, e⟩)

/-- After the middle host stretch (the pairwise region's entry). -/
abbrev W3 : Dev nD → Valuation τ sig (Elt F) := fun c => StableHlo.after hostOps1 (W2 m c)
abbrev V3 : (c : Dev nD) → (b : Ref sig .tc) → Buf (Elt F) ((c : Thread nD τ).loc b) := fun c b => W3 m c b
/-- At the pairwise region's exit: the feature array at what the four write-backs leave, every other buffer as
    entered (the region's two input windows never write their array). -/
def W4 (c : Dev nD) : Valuation τ sig (Elt F) :=
  Function.update (W3 m c) (Proc.devRef .tc main_v4) ((dat1 (V3 m) c).arrAt 2 cfg1.N)
abbrev V4 : (c : Dev nD) → (b : Ref sig .tc) → Buf (Elt F) ((c : Thread nD τ).loc b) := fun c b => W4 m c b
theorem W4_out (c : Dev nD) : W4 m c (Proc.devRef .tc main_v4) = (dat1 (V3 m) c).arrAt 2 cfg1.N := by
  unfold W4; exact Function.update_self ..
theorem W4_of_ne (c : Dev nD) (b : Ref sig .tc) (hb : b ≠ main_v4) :
    W4 m c (Proc.devRef .tc b) = W3 m c (Proc.devRef .tc b) := by
  unfold W4; exact Function.update_of_ne (StableHlo.devRef_ne_of_ne hb) ..
/-- After the last host stretch: the end. -/
abbrev W5 : Dev nD → Valuation τ sig (Elt F) := fun c => StableHlo.after hostOps2 (W4 m c)

/-! ## The proof data family and the thread state -/

abbrev adm : (p : Fin 2) → (pcfgs (F := F) p).Adm := fun p => (cfgs p).toPCfg_adm
/-- Every pipeline's proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V3 m) c
abbrev 𝒱₀ : Variants := Variants.none
abbrev L : GSem nD τ sig → Finset Unit := fun _ => ∅
abbrev lv : GSem nD τ sig → Unit → ℕ := fun _ _ => 0
/-- What rides beside the buffers through every segment: the core's generator register at some state and its dues,
    at nothing. -/
abbrev R (c : Dev nD) : sProp 𝕄 := iprop((∃ r, prngReg c r) ∗ ∃ W, owes (c : Thread nD τ) (0 : CellTallies nD τ sig Unit) W)
/-- A host stretch as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the end's contents, the generator register at
    some state. -/
abbrev Tₙ (c : Dev nD) : sProp 𝕄 := iprop(StableHlo.held (c : Thread nD τ) (Pipeline.ucRefs τ sig) (W5 m c) ∗ ∃ r, prngReg c r)

/-! ## The product region as a segment -/

set_option backward.isDefEq.respectTransparency.types false in
/-- Entered from every unscoped buffer at `W1`, left at `W2`: its arrays split out of the unscoped buffers and put
    back at the exit contents; the generator register into the invariant and out; nothing owed; no semaphore of the
    kernel's own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (V1 m c) (V2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The pairwise region: the shared array's full share dealt in halves and joined again -/

/-- A whole buffer at the full share is its two half shares. -/
theorem full_halves (ℓ : Loc nD τ sig) (f : Buf (Elt F) ℓ) :
    (ℓ ↦{fullShare} f : sProp 𝕄) = iprop((ℓ ↦{fullShare.left} f) ∗ (ℓ ↦{fullShare.right} f)) := by
  have h : (ℓ ↦{fullShare} f : sProp 𝕄) ⊣⊢ iprop((ℓ ↦{fullShare.left} f) ∗ (ℓ ↦{fullShare.right} f)) :=
    Region.is_share (PosShare.mem_left_op_right fullShare)
  exact Idealize.SL.BI.Entails.antisymm h.mp h.mpr

/-- The pairwise pipeline's arrays, at contents `f3` on both windows of the shared array and `f4` on the feature
    array: the shared array's left half, its right half, and the feature array whole. -/
theorem arrays1_eq (V : (c : Dev nD) → (b : Ref sig .tc) → Buf (Elt F) ((c : Thread nD τ).loc b)) (c : Dev nD)
    (A : (w : Fin cfg1.W) → Buf (Elt F) ((cfg1.win w).arr.view.loc (c.tc : Thread nD τ)))
    (f3 : Buf (Elt F) ((c : Thread nD τ).loc main_v3)) (f4 : Buf (Elt F) ((c : Thread nD τ).loc main_v4))
    (h0 : A 0 = f3) (h1 : A 1 = f3) (h2 : A 2 = f4) :
    ((dat1 V c).arrays A : sProp 𝕄)
      = iprop((((c : Thread nD τ).loc main_v3) ↦{fullShare.left} f3) ∗ (((c : Thread nD τ).loc main_v3) ↦{fullShare.right} f3)
          ∗ (((c : Thread nD τ).loc main_v4) ↦{fullShare} f4)) := by
  unfold Dat.arrays
  rw [bigSep_W1]
  rw [(arr_whole1 0).set_eq_univ, (arr_whole1 2).set_eq_univ]
  rw [show (dat1 V c).share 0 = fullShare.left from rfl, show (dat1 V c).share 1 = fullShare.right from rfl, show (dat1 V c).share 2 = fullShare from rfl]
  rw [h0, h1, h2]

/-- The two distinct buffers behind the pairwise pipeline's three windows. -/
theorem arrBufs1_eq (c : Dev nD) (V' : (b : Ref sig .tc) → Buf (Elt F) ((c : Thread nD τ).loc b)) :
    (Pipeline.arrBufs (Ix := Unit) (Name := ℕ) (U := UR sig nD τ) (Lvl := ℕ) spec1 c V' : sProp 𝕄)
      = iprop((((c : Thread nD τ).loc main_v3) ↦{fullShare} V' main_v3) ∗ (((c : Thread nD τ).loc main_v4) ↦{fullShare} V' main_v4)) := by
  unfold Pipeline.arrBufs
  rw [show (Finset.univ.image (Pipeline.arrRef spec1)) = insert main_v3 {main_v4} from by decide, bigSep_insert (by decide), bigSep_singleton]
  rfl

/-- A core's unscoped buffers are the two buffers behind the pairwise pipeline's windows and the rest. -/
theorem split1 (c : Dev nD) (V' : (b : Ref sig .tc) → Buf (Elt F) ((c : Thread nD τ).loc b)) :
    (unscopedBufs (Ix := Unit) (Name := ℕ) (U := UR sig nD τ) (Lvl := ℕ) c V' : sProp 𝕄)
      = iprop((Pipeline.arrBufs spec1 c V' : sProp 𝕄) ∗ Pipeline.unscopedRest spec1 c V') :=
  Pipeline.PerCore.unscopedBufs_split₀ (fun _ : Dev nD => cfgs) 1 c winFacts₀1.arr_unscoped V'

/-- ENTRY: every unscoped buffer at `W3` is the pipeline's arrays at their entry contents — the shared array's full
    share split between its two windows — beside the buffers that bypass the region. -/
theorem entry1 (c : Dev nD) :
    (StableHlo.held (c : Thread nD τ) (Pipeline.ucRefs τ sig) (W3 m c) : sProp 𝕄)
      ⊢ iprop((dat1 (V3 m) c).arrays ((dat1 (V3 m) c).arrAt · 0)
          ∗ Pipeline.unscopedRest (Ix := Unit) (Name := ℕ) (U := UR sig nD τ) (Lvl := ℕ) spec1 c (V3 m c)) := by
  have h : (unscopedBufs (Ix := Unit) (Name := ℕ) (U := UR sig nD τ) (Lvl := ℕ) c (V3 m c) : sProp 𝕄)
      ⊢ iprop((dat1 (V3 m) c).arrays ((dat1 (V3 m) c).arrAt · 0)
          ∗ Pipeline.unscopedRest (Ix := Unit) (Name := ℕ) (U := UR sig nD τ) (Lvl := ℕ) spec1 c (V3 m c)) := by
    rw [split1 c (V3 m c), arrBufs1_eq,
      arrays1_eq (V3 m) c _ (V3 m c main_v3) (V3 m c main_v4) rfl rfl rfl, full_halves]
    iintro ⟨⟨⟨Hl, Hr⟩, Ho⟩, Hrest⟩
    isplitr [Hrest]
    · isplitl [Hl]; · iexact Hl
      isplitl [Hr]; · iexact Hr
      iexact Ho
    iexact Hrest
  rw [Pipeline.unscopedBufs_held] at h
  exact h

/-- EXIT: the pipeline's arrays at their final contents — the shared array unchanged on both windows, its halves
    joined — beside the bypassing buffers are every unscoped buffer at `W4`. -/
theorem exit1 (c : Dev nD) :
    iprop((dat1 (V3 m) c).arrays ((dat1 (V3 m) c).arrAt · cfg1.N)
        ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := by
  have hrest : (Pipeline.unscopedRest (Ix := Unit) (Name := ℕ) (U := UR sig nD τ) (Lvl := ℕ) spec1 c (V4 m c) : sProp 𝕄)
      = Pipeline.unscopedRest spec1 c (V3 m c) := by
    unfold Pipeline.unscopedRest
    exact bigSep_congr fun b hb => by
      rw [show V4 m c b = V3 m c b from W4_of_ne m c b fun e => (Finset.mem_sdiff.mp hb).2 (e ▸ (by decide))]
  have h : iprop((dat1 (V3 m) c).arrays ((dat1 (V3 m) c).arrAt · cfg1.N)
        ∗ Pipeline.unscopedRest (Ix := Unit) (Name := ℕ) (U := UR sig nD τ) (Lvl := ℕ) spec1 c (V3 m c))
      ⊢ (unscopedBufs (Ix := Unit) (Name := ℕ) (U := UR sig nD τ) (Lvl := ℕ) c (V4 m c) : sProp 𝕄) := by
    rw [split1 c (V4 m c), arrBufs1_eq, hrest,
      show V4 m c main_v3 = V3 m c main_v3 from W4_of_ne m c main_v3 (by decide),
      show V4 m c main_v4 = (dat1 (V3 m) c).arrAt 2 cfg1.N from W4_out m c,
      arrays1_eq (V3 m) c _ (V3 m c main_v3) ((dat1 (V3 m) c).arrAt 2 cfg1.N)
        (((dat1 (V3 m) c).arrAt_in 0 rfl _).trans (A_eq1 (V3 m) c 0)) (((dat1 (V3 m) c).arrAt_in 1 rfl _).trans (A_eq1 (V3 m) c 1)) rfl,
      full_halves]
    iintro ⟨⟨Hl, Hr, Ho⟩, Hrest⟩
    isplitr [Hrest]
    · isplitr [Ho]
      · isplitl [Hl]; · iexact Hl
        iexact Hr
      iexact Ho
    iexact Hrest
  rw [Pipeline.unscopedBufs_held] at h
  exact h

/-- The same two, read at the proof data family's second member. -/
theorem entry1' (c : Dev nD) :
    (StableHlo.held (c : Thread nD τ) (Pipeline.ucRefs τ sig) (W3 m c) : sProp 𝕄)
      ⊢ iprop((pdats m 1 c).arrays ((pdats m 1 c).arrAt · 0)
          ∗ Pipeline.unscopedRest (Ix := Unit) (Name := ℕ) (U := UR sig nD τ) (Lvl := ℕ) spec1 c (V3 m c)) := entry1 m c
theorem exit1' (c : Dev nD) :
    iprop((pdats m 1 c).arrays ((pdats m 1 c).arrAt · cfg1.N)
        ∗ Pipeline.unscopedRest (Ix := Unit) (Name := ℕ) (U := UR sig nD τ) (Lvl := ℕ) spec1 c (V3 m c))
      ⊢ (StableHlo.held (c : Thread nD τ) (Pipeline.ucRefs τ sig) (W4 m c) : sProp 𝕄) := exit1 m c

/-- The end of the chain: the last host stretch's state is the last thread state beside the core owing nothing. -/
theorem last_step (c : Dev nD) :
    iprop(StableHlo.held (c : Thread nD τ) (Pipeline.ucRefs τ sig) (W5 m c) ∗ R (F := F) c)
      ⊢ iprop(Tₙ m c ∗ ∃ W, owes (c : Thread nD τ) (0 : CellTallies nD τ sig Unit) W) := by
  iintro ⟨Hh, Hp, HO⟩
  isplitr [HO]
  · isplitl [Hh]; · iexact Hh
    iexact Hp
  iexact HO

/-! ## The pairwise region as a segment -/

set_option backward.isDefEq.respectTransparency.types false in
/-- Entered from every unscoped buffer at `W3`, left at `W4`. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V3 m) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (V3 m c)
  hentry c := by
    rw [Pipeline.ownSems0_none]
    have hsplit := entry1' m c
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := exit1' m c
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the run -/

abbrev segs : List (Pipeline.Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)) ]

theorem main_run (c : Dev nD) : main (F := F) c = Pipeline.Seg.run (segs m) := (main_chain c).trans (by chain_rfl)

set_option backward.isDefEq.respectTransparency.types false in
/-- THE RUN, at any float instance: from any memory with zero counters every weakly fair execution of @main
    terminates, nothing faulting, and every unscoped buffer of every core ends at the end's contents `W5`. -/
theorem run : θ_run defs (onTc (τ := τ) (main (F := F))) ⟨m, fun _ => 0, ρ⟩ (fun r => ∀ c : Dev nD,
      ∀ b ∈ Pipeline.ucRefs τ sig, r.2.mem (((c : Thread nD τ)).1, b) = W5 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl, fun _ => .rfl, fun c => last_step m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m c b)
    (hfin := fun c s' => by
      iintro ⟨⟨Hh, -⟩, HSI⟩
      unfold StableHlo.held
      imodintro
      iapply (pointsTo_read_all (Pipeline.ucRefs τ sig) (fun b => (((c : Thread nD τ)).1, b)) (W5 m c) s')
      isplitl [Hh] <;> iassumption)
    (hQ := fun s h c => h c)

end Cert.KernelIdeal.Hand

end
-- ==== Proof.KIEnd.lean ====
/-
  The contents at the end, read back.

  No host operation and no region writes an argument, so the fold at an argument's buffer walks back to the launch
  memory.  The result buffer is the last host operation's concatenation of the first argument with the feature array;
  the feature array is what the pairwise region's write-backs leave; the table array that region reads is the middle
  host stretch's reshape of the product region's output; the product region's right operand is the first host
  stretch's transposed and reshaped weight.
-/
import proofs.«159068_j12850542149933_1_alg».proof.Proof.KIRun
import Idealize.ShloMosaic.Lib.StableHlo.Run

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The arguments end as launched -/

theorem W1_of (c : Dev nD) (r : Ref sig .tc) (h : r ∉ hostOps0_W) : W1 m c r = W0 m c r :=
  StableHlo.after_of_writes_sub hostOps0 _ hostOps0_writes h
theorem W3_of (c : Dev nD) (r : Ref sig .tc) (h : r ∉ hostOps1_W) : W3 m c r = W2 m c r :=
  StableHlo.after_of_writes_sub hostOps1 _ hostOps1_writes h
theorem W5_of (c : Dev nD) (r : Ref sig .tc) (h : r ∉ hostOps2_W) : W5 m c r = W4 m c r :=
  StableHlo.after_of_writes_sub hostOps2 _ hostOps2_writes h

theorem W2_main_arg0 (c : Dev nD) : W2 m c (Proc.devRef .tc main_arg0) = W1 m c (Proc.devRef .tc main_arg0) :=
  (W2_arr m c 0).trans (((dat0 (V1 m) c).arrAt_in 0 rfl _).trans (A_eq0 (V1 m) c 0))

theorem W4_main_arg0 (c : Dev nD) : W4 m c (Proc.devRef .tc main_arg0) = m ((c : Thread nD τ).loc main_arg0) :=
  (W4_of_ne m c main_arg0 (by decide)).trans <| (W3_of m c main_arg0 (by decide)).trans <| (W2_main_arg0 m c).trans <|
    (W1_of m c main_arg0 (by decide)).trans rfl
theorem W5_main_arg0 (c : Dev nD) : W5 m c (Proc.devRef .tc main_arg0) = m ((c : Thread nD τ).loc main_arg0) :=
  (W5_of m c main_arg0 (by decide)).trans (W4_main_arg0 m c)
theorem W5_main_arg1 (c : Dev nD) : W5 m c (Proc.devRef .tc main_arg1) = m ((c : Thread nD τ).loc main_arg1) :=
  (W5_of m c main_arg1 (by decide)).trans <| (W4_of_ne m c main_arg1 (by decide)).trans <| (W3_of m c main_arg1 (by decide)).trans <|
    (W2_of_ne m c main_arg1 (by decide)).trans <| (W1_of m c main_arg1 (by decide)).trans rfl

/-! ## The arrays on the way, each as its operations' term -/

/-- The product region's left operand is the first argument as launched. -/
theorem V1_main_arg0 (c : Dev nD) : V1 m c main_arg0 = m ((c : Thread nD τ).loc main_arg0) :=
  (W1_of m c main_arg0 (by decide)).trans rfl

/-- The product region's right operand: the weight with its last two axes swapped, flattened to a matrix. -/
theorem V1_main_v1 (c : Dev nD) :
    (V1 m c main_v1 : (⟨S512x2048, .f32⟩ : BufTy).Contents (Elt F))
      = shapeCast S512x2048 (transpose S512x16x128 [0, 2, 1] (m ((c : Thread nD τ).loc main_arg1)) Facts₀.transposes_S512x128x16_S512x16x128_0_2_1)
          Facts₀.shapeCasts_S512x16x128_S512x2048 := by
  show StableHlo.after hostOps0 (W0 m c) (Proc.devRef .tc main_v1) = _
  after_results
  rfl

/-- The product region's output array after the region. -/
theorem W2_main_v2 (c : Dev nD) : W2 m c (Proc.devRef .tc main_v2) = (dat0 (V1 m) c).arrAt 2 cfg0.N := W2_arr m c 2

/-- The pairwise region's table array: the product's output reshaped to [256, 16, 128]. -/
theorem V3_main_v3 (c : Dev nD) :
    (V3 m c main_v3 : (⟨S256x16x128, .f32⟩ : BufTy).Contents (Elt F))
      = shapeCast S256x16x128 (W2 m c (Proc.devRef .tc main_v2) : (⟨S256x2048, .f32⟩ : BufTy).Contents (Elt F)) Facts₀.shapeCasts_S256x2048_S256x16x128 := by
  show StableHlo.after hostOps1 (W2 m c) (Proc.devRef .tc main_v3) = _
  after_results
  rfl

/-- The result: the first argument with the feature array appended along the second axis. -/
theorem W5_main_v5 (c : Dev nD) :
    (W5 m c (Proc.devRef .tc main_v5) : (⟨S256x640, .f32⟩ : BufTy).Contents (Elt F))
      = concatenate S256x640 1 [⟨S256x512, m ((c : Thread nD τ).loc main_arg0)⟩, ⟨S256x128, (dat1 (V3 m) c).arrAt 2 cfg1.N⟩]
          Facts₀.concatenates_S256x512_S256x128_S256x640_d1 := by
  rw [← W4_main_arg0 m c, ← W4_out m c]
  show StableHlo.after hostOps2 (W4 m c) (Proc.devRef .tc main_v5) = _
  after_results

end Cert.KernelIdeal.Hand

end
-- ==== Proof.LibMatmulAt.lean ====
/-
  A matrix product with one contracted axis, read at one entry.

  For dimension numbers that contract the left operand's second axis with the right operand's first — the left
  operand [a, n], the right operand [n, b], the result [a, b], no batch axes — the entry (p, q) of the product is
  the sum over k of left (p, k) times right (k, q). The dimension numbers enter only through four facts about where
  the two operand indices sit (the left one reads the result's row and the contraction position, the right one the
  contraction position and the result's column); a caller proves those four facts for its own record, each by unfolding
  the record's two membership tests.

  `contr_sum_ix2`      the contraction's sum re-indexed by the one contracted coordinate;
  `matmul_zero_ix2`    a `tpu.matmul` into the zero accumulator at the ideal instance;
  `dotGeneral_ix2`     the host's `dot_general` at the ideal instance.
-/
import Idealize.ShloMosaic.PureOps.Ideal.Laws
import Idealize.ShloMosaic.Lib.ValueIdx

noncomputable section

open scoped BigOperators

namespace Idealize.ShloMosaic.MatmulAt

open Idealize.ShloMosaic Idealize.ShloMosaic.ValueIdx

variable {a n b : ℕ}

/-- The sum over the contraction positions of a one-axis contraction is the sum over the contracted coordinate
    `k : Fin n`, the left operand read at `(p, k)` and the right one at `(k, q)`. -/
theorem contr_sum_ix2 (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (l : (⟨2, ![a, n]⟩ : Shape).Idx → EReal) (r : (⟨2, ![n, b]⟩ : Shape).Idx → EReal) (p : Fin a) (q : Fin b) :
    ∑ k : D.contr.Idx, l (D.lhsIdx (ix2 p q) k) * r (D.rhsIdx (ix2 p q) k) = ∑ k : Fin n, l (ix2 p k) * r (ix2 k q) := by
  rw [← Equiv.sum_comp (contrEquiv1 D n hr hs).symm]
  refine Finset.sum_congr rfl fun k _ => ?_
  have hk := contrEquiv1_symm_val D n hr hs k
  have el : D.lhsIdx (ix2 p q) ((contrEquiv1 D n hr hs).symm k) = ix2 p k := funext fun ax => Fin.ext (by
    match ax with
    | ⟨0, _⟩ => exact hl0 _ _
    | ⟨1, _⟩ => exact (hl1 _ _).trans hk)
  have er : D.rhsIdx (ix2 p q) ((contrEquiv1 D n hr hs).symm k) = ix2 k q := funext fun ax => Fin.ext (by
    match ax with
    | ⟨0, _⟩ => exact (hr0 _ _).trans hk
    | ⟨1, _⟩ => exact hr1 _ _)
  rw [el, er]

/-- A `tpu.matmul` of an [a, n] by an [n, b] operand into the zero accumulator, at the ideal instance, read at
    `(p, q)`: the sum over `k` of left `(p, k)` times right `(k, q)`. -/
theorem matmul_zero_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    matmul D prec l r (constant ⟨2, ![a, b]⟩ .f32 0x00000000#32) (ix2 p q) = ∑ k : Fin n, l (ix2 p k) * r (ix2 k q) :=
  (Ideal.matmul_constant_zero_apply D prec l r (ix2 p q)).trans (contr_sum_ix2 D hr hs hl0 hl1 hr0 hr1 l r p q)

/-- The host's `dot_general` of an [a, n] by an [n, b] operand, at the ideal instance, read at `(p, q)`: the same sum. -/
theorem dotGeneral_ix2 {φ₁ φ₂ : FTy} (D : DotDims ⟨2, ![a, n]⟩ ⟨2, ![n, b]⟩ ⟨2, ![a, b]⟩) (hr : D.contr.rank = 1)
    (hs : D.contr.size ⟨0, by omega⟩ = n)
    (hl0 : ∀ i q, (D.lhsIdx i q (0 : Fin 2)).val = (i (0 : Fin 2)).val)
    (hl1 : ∀ i q, (D.lhsIdx i q (1 : Fin 2)).val = (q ⟨0, by omega⟩).val)
    (hr0 : ∀ i q, (D.rhsIdx i q (0 : Fin 2)).val = (q ⟨0, by omega⟩).val)
    (hr1 : ∀ i q, (D.rhsIdx i q (1 : Fin 2)).val = (i (1 : Fin 2)).val)
    (prec : Option ContractPrecision) (l : FVec Ideal ⟨2, ![a, n]⟩ φ₁) (r : FVec Ideal ⟨2, ![n, b]⟩ φ₂)
    (p : Fin a) (q : Fin b) :
    Host.dotGeneral D prec l r (ix2 p q) = ∑ k : Fin n, l (ix2 p k) * r (ix2 k q) :=
  (Ideal.dotGeneral_apply D prec .single l r (ix2 p q)).trans (contr_sum_ix2 D hr hs hl0 hl1 hr0 hr1 l r p q)

end Idealize.ShloMosaic.MatmulAt

end
-- ==== Proof.KIPayAt.lean ====
/-
  The kernel's stored values read at one index, at the ideal instance.

  `pay0_at`   the product body's stored block at (p, q): the sum over i of left (p, i) times right (i, q). The two
              narrowing format changes are the identity on extended reals and the shape cast is to the same shape.
  `t2_at`     the weight, each of its 512 matrices transposed and the last two axes then flattened to 2048 columns,
              read at column k * 128 + o: the weight at (i, o, k).
  `m3_at`     a [256, 2048] array viewed as [256, 16, 128], read at (a, k, o): the array at (a, k * 128 + o).
-/
import proofs.«159068_j12850542149933_1_alg».proof.Proof.KIPayloads
import proofs.«159068_j12850542149933_1_alg».proof.Proof.LibMatmulAt
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen

variable [Cert.KernelIdeal.Facts]

/-! ## The product's dimension numbers: where the two operand indices sit -/

/-- The left operand's row is the result's row. -/
theorem dot_lhs0 (i : S256x2048.Idx) (q : dot_S256x512_S512x2048_S256x2048_1_0_0_1_n_n.contr.Idx) :
    (dot_S256x512_S512x2048_S256x2048_1_0_0_1_n_n.lhsIdx i q 0).val = (i 0).val := by
  unfold DotDims.lhsIdx
  rw [dif_neg (show ¬(0 : Fin S256x512.rank) ∈ dot_S256x512_S512x2048_S256x2048_1_0_0_1_n_n.lhsBatch by decide), dif_pos (show (0 : Fin S256x512.rank) ∈ dot_S256x512_S512x2048_S256x2048_1_0_0_1_n_n.lhsNonContracting by decide)]
  rfl

/-- The left operand's column is the contraction position. -/
theorem dot_lhs1 (i : S256x2048.Idx) (q : dot_S256x512_S512x2048_S256x2048_1_0_0_1_n_n.contr.Idx) :
    (dot_S256x512_S512x2048_S256x2048_1_0_0_1_n_n.lhsIdx i q 1).val = (q ⟨0, by decide⟩).val :=
  dot_S256x512_S512x2048_S256x2048_1_0_0_1_n_n.lhsIdx_val_of_single rfl i q

/-- The right operand's row is the contraction position. -/
theorem dot_rhs0 (i : S256x2048.Idx) (q : dot_S256x512_S512x2048_S256x2048_1_0_0_1_n_n.contr.Idx) :
    (dot_S256x512_S512x2048_S256x2048_1_0_0_1_n_n.rhsIdx i q 0).val = (q ⟨0, by decide⟩).val :=
  dot_S256x512_S512x2048_S256x2048_1_0_0_1_n_n.rhsIdx_val_of_single rfl i q

/-- The right operand's column is the result's column. -/
theorem dot_rhs1 (i : S256x2048.Idx) (q : dot_S256x512_S512x2048_S256x2048_1_0_0_1_n_n.contr.Idx) :
    (dot_S256x512_S512x2048_S256x2048_1_0_0_1_n_n.rhsIdx i q 1).val = (i 1).val := by
  unfold DotDims.rhsIdx
  rw [dif_neg (show ¬(1 : Fin S512x2048.rank) ∈ dot_S256x512_S512x2048_S256x2048_1_0_0_1_n_n.rhsBatch by decide), dif_pos (show (1 : Fin S512x2048.rank) ∈ dot_S256x512_S512x2048_S256x2048_1_0_0_1_n_n.rhsNonContracting by decide)]
  rfl

/-! ## The product body -/

/-- The product body's stored block at (p, q) is the sum over i of left (p, i) times right (i, q). -/
theorem pay0_at (v0 : Vec Ideal S256x512 .f32) (v2 : Vec Ideal S512x2048 .f32) (p : Fin 256) (q : Fin 2048) :
    pay0 (F := Ideal) v0 v2 (ix2 p q) = ∑ i : Fin 512, v0 (ix2 p i) * v2 (ix2 i q) := by
  unfold pay0 k0_pay1
  rw [shapeCast_self]
  exact MatmulAt.matmul_zero_ix2 dot_S256x512_S512x2048_S256x2048_1_0_0_1_n_n rfl rfl dot_lhs0 dot_lhs1 dot_rhs0 dot_rhs1
    none (truncf .bf16 v0 Gen.bitsLt_bf16_f32) (truncf .bf16 v2 Gen.bitsLt_bf16_f32) p q

/-! ## The two host re-layouts -/

/-- The weight with its last two axes swapped and then flattened, read at column k * 128 + o, is the weight at (i, o, k). -/
theorem t2_at {α : Type} (T : S512x128x16.Idx → α) (i : Fin 512) (k : Fin 16) (o : Fin 128) :
    shapeCast S512x2048 (transpose S512x16x128 [0, 2, 1] T Facts₀.transposes_S512x128x16_S512x16x128_0_2_1)
        Facts₀.shapeCasts_S512x16x128_S512x2048 (ix2 i ⟨k.val * 128 + o.val, by omega⟩) = T (ix3 i o k) := by
  refine (shapeCast_apply _ Facts₀.shapeCasts_S512x16x128_S512x2048 (ix2 i ⟨k.val * 128 + o.val, by omega⟩) (ix3 i k o) ?_).trans ?_
  · rw [Shape.rowMajor_val_three, Shape.rowMajor_val_two]
    show (i.val * 16 + k.val) * 128 + o.val = i.val * 2048 + (k.val * 128 + o.val)
    omega
  · exact transpose_ix3_021_apply T Facts₀.transposes_S512x128x16_S512x16x128_0_2_1 i k o

/-- A [256, 2048] array viewed as [256, 16, 128], read at (a, k, o), is the array at (a, k * 128 + o). -/
theorem m3_at {α : Type} (M : S256x2048.Idx → α) (a : Fin 256) (k : Fin 16) (o : Fin 128) :
    shapeCast S256x16x128 M Facts₀.shapeCasts_S256x2048_S256x16x128 (ix3 a k o) = M (ix2 a ⟨k.val * 128 + o.val, by omega⟩) :=
  shapeCast_apply M Facts₀.shapeCasts_S256x2048_S256x16x128 (ix3 a k o) (ix2 a ⟨k.val * 128 + o.val, by omega⟩) (by
    rw [Shape.rowMajor_val_two, Shape.rowMajor_val_three]
    show a.val * 2048 + (k.val * 128 + o.val) = (a.val * 16 + k.val) * 128 + o.val
    omega)

end Cert.KernelIdeal.Hand

end
-- ==== Proof.KIPay1At.lean ====
/-
  The pairwise body's stored block read at one index, at the ideal instance.

  The body takes the whole [256, 16, 128] array and a block of 64 of its rows. Column by column it spreads column k of
  the block along a new middle axis and column k of the array along a new leading axis, both to [64, 256, 128], takes the
  absolute value of their difference and adds it to a running sum that starts at zero; then it subtracts the sum from
  zero, takes the exponential, and sums over the middle axis.

  `blockCol_at`, `arrayCol_at`   the two spread columns at (r, a, o): the block at (r, k, o), the array at (a, k, o);
  `col_at`                      one column's contribution at (r, a, o): `dcol`, the absolute difference, as max d (-d);
  `pay4_at`, `pay7_at`, `pay10_at`  the running sum after columns 0-3, 4-8 and 9-14;
  `lanesum_at`, `pay1_stage`    the sum over the middle axis, and the last column with the exponential;
  `pay1_at`                     the stored block at (r, o): the sum over the 256 rows a of exp (-(the sum over the sixteen
                                columns of the absolute differences)).
-/
import proofs.«159068_j12850542149933_1_alg».proof.Proof.KIPayloads
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Hand

open Idealize.ShloMosaic Idealize.ShloMosaic.ValueIdx Cert.KernelIdeal Cert.KernelIdeal.Gen

variable [Cert.KernelIdeal.Facts]

/-! ## One column of the block and of the array, spread over [64, 256, 128] -/

section Layout
variable {α : Type}

/-- Column `kk` of the 64-row block, spread along the middle axis: at (r, a, o) it is the block at (r, kk, o). -/
theorem blockCol_at (kk : ℕ) (v3 : S64x16x128.Idx → α) (hs : S64x16x128.Slices ![0, kk, 0] S64x1x128)
    (h1 : S64x1x128.ShapeCasts S64x128) (h2 : S64x128.ShapeCasts S64x1x128) (h3 : S64x1x128.Broadcasts S64x256x128)
    (r : Fin 64) (a : Fin 256) (o : Fin 128) :
    broadcastTo S64x256x128 (shapeCast S64x1x128 (shapeCast S64x128 (extractStridedSlice S64x1x128 ![0, kk, 0] v3 hs) h1) h2) h3
        (ix3 r a o)
      = v3 (ix3 r ⟨kk, Nat.lt_of_lt_of_le (Nat.lt_succ_self kk) (hs.2 1)⟩ o) := by
  rw [shapeCast_shapeCast]
  refine (broadcastTo_apply _ h3 (ix3 r a o) (ix3 r (0 : Fin 1) o) fun ax => ?_).trans ?_
  · match ax with
    | ⟨0, _⟩ => show r.val = if (64 : Nat) = 1 then 0 else r.val; rw [if_neg (by decide)]
    | ⟨1, _⟩ => show 0 = if (1 : Nat) = 1 then 0 else a.val; rw [if_pos rfl]
    | ⟨2, _⟩ => show o.val = if (128 : Nat) = 1 then 0 else o.val; rw [if_neg (by decide)]
  · exact extractStridedSlice_apply _ v3 hs (ix3 r (0 : Fin 1) o) _ fun ax => match ax with
      | ⟨0, _⟩ => by show r.val = 0 + r.val; omega
      | ⟨1, _⟩ => by show kk = kk + 0; rfl
      | ⟨2, _⟩ => by show o.val = 0 + o.val; omega

/-- Column `kk` of the whole 256-row array, spread along the leading axis: at (r, a, o) it is the array at (a, kk, o). -/
theorem arrayCol_at (kk : ℕ) (v1 : S256x16x128.Idx → α) (hs : S256x16x128.Slices ![0, kk, 0] S256x1x128)
    (h1 : S256x1x128.ShapeCasts S256x128) (h2 : S256x128.ShapeCasts S1x256x128) (h3 : S1x256x128.Broadcasts S64x256x128)
    (r : Fin 64) (a : Fin 256) (o : Fin 128) :
    broadcastTo S64x256x128 (shapeCast S1x256x128 (shapeCast S256x128 (extractStridedSlice S256x1x128 ![0, kk, 0] v1 hs) h1) h2) h3
        (ix3 r a o)
      = v1 (ix3 a ⟨kk, Nat.lt_of_lt_of_le (Nat.lt_succ_self kk) (hs.2 1)⟩ o) := by
  refine (broadcastTo_apply _ h3 (ix3 r a o) (ix3 (0 : Fin 1) a o) fun ax => ?_).trans ?_
  · match ax with
    | ⟨0, _⟩ => show 0 = if (1 : Nat) = 1 then 0 else r.val; rw [if_pos rfl]
    | ⟨1, _⟩ => show a.val = if (256 : Nat) = 1 then 0 else a.val; rw [if_neg (by decide)]
    | ⟨2, _⟩ => show o.val = if (128 : Nat) = 1 then 0 else o.val; rw [if_neg (by decide)]
  refine (shapeCast_ab_1ab_apply _ h2 (0 : Fin 1) a o).trans ?_
  refine (shapeCast_apply _ h1 (ix2 a o) (ix3 a (0 : Fin 1) o) ?_).trans ?_
  · rw [Shape.rowMajor_val_three, Shape.rowMajor_val_two]
    show (a.val * 1 + 0) * 128 + o.val = a.val * 128 + o.val
    omega
  · exact extractStridedSlice_apply _ v1 hs (ix3 a (0 : Fin 1) o) _ fun ax => match ax with
      | ⟨0, _⟩ => by show a.val = 0 + a.val; omega
      | ⟨1, _⟩ => by show kk = kk + 0; rfl
      | ⟨2, _⟩ => by show o.val = 0 + o.val; omega

end Layout

/-! ## One column's contribution -/

/-- The absolute difference of the block's row `r` and the array's row `a` at column `k`, channel `o`. -/
def dcol (v0 : FVec Ideal S256x16x128 .f32) (v2 : FVec Ideal S64x16x128 .f32) (r : Fin 64) (a : Fin 256) (o : Fin 128)
    (k : Fin 16) : EReal :=
  max (v2 (ix3 r k o) - v0 (ix3 a k o)) (-(v2 (ix3 r k o) - v0 (ix3 a k o)))

/-- The absolute value of the difference of the two spread columns `kk`, at (r, a, o). -/
theorem col_at (kk : ℕ) (v1 : FVec Ideal S256x16x128 .f32) (v3 : FVec Ideal S64x16x128 .f32)
    (hs3 : S64x16x128.Slices ![0, kk, 0] S64x1x128) (hs1 : S256x16x128.Slices ![0, kk, 0] S256x1x128)
    (h31 : S64x1x128.ShapeCasts S64x128) (h32 : S64x128.ShapeCasts S64x1x128) (h33 : S64x1x128.Broadcasts S64x256x128)
    (h11 : S256x1x128.ShapeCasts S256x128) (h12 : S256x128.ShapeCasts S1x256x128) (h13 : S1x256x128.Broadcasts S64x256x128)
    (r : Fin 64) (a : Fin 256) (o : Fin 128) :
    absf (subf
        (broadcastTo S64x256x128 (shapeCast S64x1x128 (shapeCast S64x128 (extractStridedSlice S64x1x128 ![0, kk, 0] v3 hs3) h31) h32) h33)
        (broadcastTo S64x256x128 (shapeCast S1x256x128 (shapeCast S256x128 (extractStridedSlice S256x1x128 ![0, kk, 0] v1 hs1) h11) h12) h13))
        (ix3 r a o)
      = dcol v1 v3 r a o ⟨kk, Nat.lt_of_lt_of_le (Nat.lt_succ_self kk) (hs3.2 1)⟩ := by
  show max (_ - _) (-(_ - _)) = _
  rw [blockCol_at, arrayCol_at]
  rfl

/-- The two same-shape casts at the head of the body are the identity. -/
theorem pay2_eq (v0 : Vec Ideal S256x16x128 .f32) : k1_pay2 (F := Ideal) v0 = v0 := shapeCast_self v0 _
theorem pay3_eq (v2 : Vec Ideal S64x16x128 .f32) : k1_pay3 (F := Ideal) v2 = v2 := shapeCast_self v2 _

/-! ## The running sum, stretch by stretch -/

/-- Columns 0 to 3, from the zero word. -/
theorem pay4_at (v0 : Vec Ideal S256x16x128 .f32) (v2 : Vec Ideal S64x16x128 .f32) (r : Fin 64) (a : Fin 256) (o : Fin 128) :
    k1_pay4 (F := Ideal) v0 v2 (ix3 r a o)
      = (((0 + dcol v0 v2 r a o 0) + dcol v0 v2 r a o 1) + dcol v0 v2 r a o 2) + dcol v0 v2 r a o 3 := by
  unfold k1_pay4
  rw [pay2_eq, pay3_eq]
  simp only [addf_apply, col_at, broadcast_apply, Ideal.ofBits_def, Ideal.ofBits_zero_f32]
  rfl

/-- Columns 4 to 8 added to what the first stretch hands over. -/
theorem pay7_at (v0 : Vec Ideal S256x16x128 .f32) (v2 : Vec Ideal S64x16x128 .f32) (X : FVec Ideal S64x256x128 .f32)
    (r : Fin 64) (a : Fin 256) (o : Fin 128) :
    k1_pay7 (F := Ideal) (k1_pay2 v0) (k1_pay3 v2) X (k1_pay5 v0) (k1_pay6 v2) (ix3 r a o)
      = ((((X (ix3 r a o) + dcol v0 v2 r a o 4) + dcol v0 v2 r a o 5) + dcol v0 v2 r a o 6) + dcol v0 v2 r a o 7)
          + dcol v0 v2 r a o 8 := by
  unfold k1_pay7 k1_pay5 k1_pay6
  rw [pay2_eq, pay3_eq]
  simp only [addf_apply, col_at]
  rfl

/-- Columns 9 to 14 added to what the second stretch hands over. -/
theorem pay10_at (v0 : Vec Ideal S256x16x128 .f32) (v2 : Vec Ideal S64x16x128 .f32) (X : FVec Ideal S64x256x128 .f32)
    (r : Fin 64) (a : Fin 256) (o : Fin 128) :
    k1_pay10 (F := Ideal) (k1_pay2 v0) (k1_pay3 v2) X (k1_pay8 (k1_pay3 v2)) (k1_pay9 (k1_pay2 v0)) (ix3 r a o)
      = (((((X (ix3 r a o) + dcol v0 v2 r a o 9) + dcol v0 v2 r a o 10) + dcol v0 v2 r a o 11) + dcol v0 v2 r a o 12)
          + dcol v0 v2 r a o 13) + dcol v0 v2 r a o 14 := by
  unfold k1_pay10 k1_pay8 k1_pay9
  rw [pay2_eq, pay3_eq]
  simp only [addf_apply, col_at]
  rfl

/-! ## The sum over the 256 rows -/

/-- A sum over the middle axis of a [64, 256, 128] vector from the zero word, read at (r, o). -/
theorem lanesum_at (src : FVec Ideal S64x256x128 .f32) (h : S64x256x128.Reduces [1] S64x128) (hφ : FKind.Formats .f32)
    (hacc : (0x00000000#32 : BitVec 32) = FKind.add.neutral .f32 hφ) (r : Fin 64) (o : Fin 128) :
    multiReduction .add [1] S64x128 src 0x00000000#32 h hφ hacc (ix2 r o) = ∑ a : Fin 256, src (ix3 r a o) := by
  refine (Ideal.multiReduction_add_single src _ h hφ hacc (ix2 r o)).trans ?_
  refine Finset.sum_congr rfl fun k _ => congrArg src (funext fun ax => Fin.ext ?_)
  match ax with
  | ⟨0, _⟩ => rfl
  | ⟨1, _⟩ => rfl
  | ⟨2, _⟩ => rfl

/-- The last column added, the sum negated by subtraction from the zero word, the exponential, and the sum over the rows. -/
theorem pay1_stage (v0 : Vec Ideal S256x16x128 .f32) (v2 : Vec Ideal S64x16x128 .f32) (X : FVec Ideal S64x256x128 .f32)
    (r : Fin 64) (o : Fin 128) :
    k1_pay1 (F := Ideal) (k1_pay3 v2) X (k1_pay11 (k1_pay2 v0)) (ix2 r o)
      = ∑ a : Fin 256, Ideal.exp (0 - (X (ix3 r a o) + dcol v0 v2 r a o 15)) := by
  unfold k1_pay1 k1_pay11
  rw [pay2_eq, pay3_eq]
  refine (lanesum_at _ _ _ _ r o).trans ?_
  refine Finset.sum_congr rfl fun a _ => ?_
  show Ideal.exp (_ - (_ + _)) = _
  simp only [col_at, broadcast_apply, Ideal.ofBits_def, Ideal.ofBits_zero_f32]
  rfl

/-! ## The stored block -/

/-- The sixteen columns' contributions, accumulated left to right from zero, are the sum over the columns. -/
theorem sum_dcol (v0 : FVec Ideal S256x16x128 .f32) (v2 : FVec Ideal S64x16x128 .f32) (r : Fin 64) (a : Fin 256) (o : Fin 128) :
    ((((((((((((((((0 + dcol v0 v2 r a o 0) + dcol v0 v2 r a o 1) + dcol v0 v2 r a o 2) + dcol v0 v2 r a o 3)
      + dcol v0 v2 r a o 4) + dcol v0 v2 r a o 5) + dcol v0 v2 r a o 6) + dcol v0 v2 r a o 7) + dcol v0 v2 r a o 8)
      + dcol v0 v2 r a o 9) + dcol v0 v2 r a o 10) + dcol v0 v2 r a o 11) + dcol v0 v2 r a o 12) + dcol v0 v2 r a o 13)
      + dcol v0 v2 r a o 14) + dcol v0 v2 r a o 15)
      = ∑ k : Fin 16, dcol v0 v2 r a o k := by
  simp only [Fin.sum_univ_castSucc, Fin.sum_univ_zero]
  rfl

/-- The pairwise body's stored block at (r, o): the sum over all 256 rows `a` of the array of the exponential of minus
    the sum over the sixteen columns of the absolute differences between the block's row `r` and the array's row `a`. -/
theorem pay1_at (v0 : Vec Ideal S256x16x128 .f32) (v2 : Vec Ideal S64x16x128 .f32) (r : Fin 64) (o : Fin 128) :
    pay1 (F := Ideal) v0 v2 (ix2 r o)
      = ∑ a : Fin 256, Ideal.exp (-(∑ k : Fin 16, max (v2 (ix3 r k o) - v0 (ix3 a k o)) (-(v2 (ix3 r k o) - v0 (ix3 a k o))))) := by
  unfold pay1
  rw [pay1_stage]
  refine Finset.sum_congr rfl fun a _ => ?_
  rw [pay10_at, pay7_at, pay4_at, sum_dcol, zero_sub]
  rfl

end Cert.KernelIdeal.Hand

end
-- ==== Proof.KIValue.lean ====
/-
  The two kernel regions' output arrays after their runs, each as one function of the arrays the region finds.

  First region (the matrix product): the grid has one point and every window's block is the whole of its array (block
  index zero on both axes, block size the array's size), so the one point writes back the product body's value of the
  two whole input arrays over the whole output array (`final0`).

  Second region (the pairwise features): four points. At point t the first input block is the whole table array
  M [256, 16, 128], the second input block is rows 64 t .. 64 t + 63 of the same array, and the output block is rows
  64 t .. 64 t + 63 of the [256, 128] feature array. A block's coordinate in its array is always
  (block index) * (block size) + (coordinate inside the block). The body's stored value at (r, o) is the sum over all
  256 rows a of exp (-(the sum over the 16 columns k of |second (r, k, o) - first (a, k, o)|)); with the second block
  read as rows of M this is the feature array of M at row 64 t + r (`pay1_block`, `flushed1_eq`). Row b lies in the
  block of point b / 64, so the four blocks cover the array (`cover1`) and the array ends holding the feature array of M
  (`final1_arr`, `final1`).
-/
import proofs.«159068_j12850542149933_1_alg».proof.Proof.KIRegion1
import proofs.«159068_j12850542149933_1_alg».proof.Proof.KIPayAt
import proofs.«159068_j12850542149933_1_alg».proof.Proof.KIPay1At
import Idealize.ShloMosaic.Lib.Pipeline.Value
import Idealize.ShloMosaic.Lib.ValueIdx

set_option maxRecDepth 16384

noncomputable section

open scoped BigOperators

namespace Cert.KernelIdeal.Hand

open Idealize.ShloMosaic Idealize.ShloMosaic.TcCoe Idealize.SL.Sem Idealize.ShloMosaic.ValueIdx
open Idealize.ShloMosaic.Pipeline (Dat)
open Cert.KernelIdeal Cert.KernelIdeal.Gen

theorem hz2 : (![0, 0] : Fin 2 → Nat) = fun _ => 0 := funext fun a => by fin_cases a <;> rfl
theorem hz3 : (![0, 0, 0] : Fin 3 → Nat) = fun _ => 0 := funext fun a => by fin_cases a <;> rfl

section Region0

variable {F : FTy → Type} [FloatOps F]
variable (V : (c : Dev nD) → (b : Ref sig .tc) → Buf (Elt F) ((c : Thread nD τ).loc b))

/-- The first region's index maps, decided over its one grid point: every window's block index is zero on both axes. -/
theorem idx_facts0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The product body's stored block depends only on its two operands and the index. -/
theorem pay0_congr {x0 x0' : Vec F S256x512 .f32} {x1 x1' : Vec F S512x2048 .f32} {j j' : S256x2048.Idx}
    (h0 : x0 = x0') (h1 : x1 = x1') (hj : j = j') : pay0 x0 x1 j = pay0 x0' x1' j' := by
  subst h0 h1 hj; rfl

/-- What the one point writes back is the product of the two whole input arrays, read through the output's block
    (which is the whole output array): each window's block starts at offset zero and has its array's size. -/
theorem flushed0_eq (c : Dev nD) (t : Fin cfg0.N) :
    (dat0 V c).flushed 2 t = ((cfg0.win 2).blk t).view.read (Elt F) (pay0 (V c main_arg0) (V c main_v1)) := by
  show (cfg0.win 2).cut (grid0.coords t) ((dat0 V c).after 2 t) = _
  rw [after0_2]
  unfold out0_2
  rw [View.canon_unit_zero hz2]
  simp only [View.ld_unit_zero (S := S256x512) hz2, View.ld_unit_zero (S := S512x2048) hz2]
  obtain ⟨e0, e1, e2, e3, e4, e5⟩ := idx_facts0 t
  funext j
  show pay0 (iblk0 V c 0 t) (iblk0 V c 1 t) ((cfg0.win 2).xinj (grid0.coords t) j)
    = pay0 (V c main_arg0) (V c main_v1) (((cfg0.win 2).blk t).view.emb j)
  refine pay0_congr (funext fun y => ?_) (funext fun y => ?_) (funext fun a => Fin.ext ?_)
  · show V c main_arg0 (((cfg0.win 0).blk t).view.emb y) = V c main_arg0 y
    refine congrArg (V c main_arg0) (funext fun a => Fin.ext ?_)
    match a with
    | ⟨0, _⟩ => show win0_0.index t (0 : Fin 2) * 256 + 1 * (y 0).val = (y 0).val; rw [e0]; omega
    | ⟨1, _⟩ => show win0_0.index t (1 : Fin 2) * 512 + 1 * (y 1).val = (y 1).val; rw [e1]; omega
  · show V c main_v1 (((cfg0.win 1).blk t).view.emb y) = V c main_v1 y
    refine congrArg (V c main_v1) (funext fun a => Fin.ext ?_)
    match a with
    | ⟨0, _⟩ => show win0_1.index t (0 : Fin 2) * 512 + 1 * (y 0).val = (y 0).val; rw [e2]; omega
    | ⟨1, _⟩ => show win0_1.index t (1 : Fin 2) * 2048 + 1 * (y 1).val = (y 1).val; rw [e3]; omega
  · match a with
    | ⟨0, _⟩ => show (j 0).val = win0_2.index t (0 : Fin 2) * 256 + 1 * (j 0).val; rw [e4]; omega
    | ⟨1, _⟩ => show (j 1).val = win0_2.index t (1 : Fin 2) * 2048 + 1 * (j 1).val; rw [e5]; omega

/-- Every index of the output array lies in the one point's block. -/
theorem cover0 (i : S256x2048.Idx) :
    ∃ t : Fin cfg0.N, (cfg0.win 2).flush t = true ∧ i ∈ ((cfg0.win 2).blk t).view.set := by
  refine ⟨t0_0, flush0_2 t0_0, ?_⟩
  obtain ⟨e0, e1, e2, e3, e4, e5⟩ := idx_facts0 t0_0
  show i ∈ ((View.whole main_v2).slice (win0_2.rect t0_0)).set
  rw [View.set_slice_whole, Rect.mem_set_unit]
  intro a
  have h0 : (i 0).val < 256 := (i 0).isLt
  have h1 : (i 1).val < 2048 := (i 1).isLt
  match a with
  | ⟨0, _⟩ => show win0_2.index t0_0 (0 : Fin 2) * 256 ≤ (i 0).val ∧ (i 0).val < win0_2.index t0_0 (0 : Fin 2) * 256 + 256; rw [e4]; omega
  | ⟨1, _⟩ => show win0_2.index t0_0 (1 : Fin 2) * 2048 ≤ (i 1).val ∧ (i 1).val < win0_2.index t0_0 (1 : Fin 2) * 2048 + 2048; rw [e5]; omega

/-- The first region's output array after its run: the product body's value of the two whole input arrays. -/
theorem final0 (c : Dev nD) :
    (dat0 V c).arrAt 2 cfg0.N = pay0 (V c main_arg0 : Vec F S256x512 .f32) (V c main_v1 : Vec F S512x2048 .f32) :=
  (dat0 V c).arrAt_eq_of_cover 2 (pay0 (V c main_arg0) (V c main_v1)) (fun t _ => flushed0_eq V c t) cover0

end Region0

section Region1

variable (V : (c : Dev nD) → (b : Ref sig .tc) → Buf (Elt Ideal) ((c : Thread nD τ).loc b))

/-- The feature array as one function of the table array `M` [256, 16, 128]: at `(b, o)` the sum over all rows `a` of
    `exp (-(the sum over the 16 columns k of |M (b, k, o) - M (a, k, o)|))`, the absolute value written `max d (-d)`. -/
def featOf (M : S256x16x128.Idx → EReal) (i : S256x128.Idx) : EReal :=
  ∑ a : Fin 256, Ideal.exp (-(∑ k : Fin 16,
    max (M (ix3 (i 0) k (i 1)) - M (ix3 a k (i 1))) (-(M (ix3 (i 0) k (i 1)) - M (ix3 a k (i 1))))))

/-- The second region's index maps, decided over its four grid points: the first window's block index is zero on
    every axis (the whole table array); the second window's and the output window's are the point's number on the row
    axis and zero elsewhere. -/
theorem idx_facts1 : ∀ t : Fin cfg1.N, win1_0.index t (0 : Fin 3) = 0 ∧ win1_0.index t (1 : Fin 3) = 0 ∧ win1_0.index t (2 : Fin 3) = 0
    ∧ win1_1.index t (0 : Fin 3) = t.val ∧ win1_1.index t (1 : Fin 3) = 0 ∧ win1_1.index t (2 : Fin 3) = 0
    ∧ win1_2.index t (0 : Fin 2) = t.val ∧ win1_2.index t (1 : Fin 2) = 0 :=
  (by decide +kernel : ∀ t : Fin grid1.N, _)

/-- The pairwise body's stored block, when its first operand is the whole table array `M` and its second operand is
    rows `64 q .. 64 q + 63` of `M`, read at `j`, is the feature array of `M` at row `64 q + j 0`, channel `j 1`. -/
theorem pay1_block (M : S256x16x128.Idx → EReal) (x0 : Vec Ideal S256x16x128 .f32) (x1 : Vec Ideal S64x16x128 .f32) (q : Nat)
    (h0 : x0 = M)
    (h1 : ∀ (r : Fin 64) (k : Fin 16) (o : Fin 128) (hr : q * 64 + r.val < 256), x1 (ix3 r k o) = M (ix3 ⟨q * 64 + r.val, hr⟩ k o))
    (j : S64x128.Idx) (i : S256x128.Idx) (hi0 : (i 0).val = q * 64 + (j 0).val) (hi1 : (i 1).val = (j 1).val) :
    pay1 (F := Ideal) x0 x1 j = featOf M i := by
  subst h0
  obtain ⟨r, o, rfl⟩ : ∃ (r : Fin 64) (o : Fin 128), j = ix2 r o := ⟨j 0, j 1, eq_ix2 j⟩
  have hi0' : (i 0).val = q * 64 + r.val := hi0
  have hi1' : (i 1).val = o.val := hi1
  have hlt : q * 64 + r.val < 256 := by rw [← hi0']; exact (i 0).isLt
  have e0 : i 0 = ⟨q * 64 + r.val, hlt⟩ := Fin.ext hi0'
  have e1 : i 1 = o := Fin.ext hi1'
  rw [pay1_at]
  unfold featOf
  rw [e0, e1]
  refine Finset.sum_congr rfl fun a _ => ?_
  refine congrArg (fun s => Ideal.exp (-s)) (Finset.sum_congr rfl fun k _ => ?_)
  rw [h1 r k o hlt]
  rfl

/-- What point `t` writes back is block `t` (rows `64 t .. 64 t + 63`) of the feature array of the table array as the
    region finds it: the first input block is the whole table array, the second its rows `64 t .. 64 t + 63`. -/
theorem flushed1_eq (c : Dev nD) (t : Fin cfg1.N) :
    (dat1 V c).flushed 2 t = ((cfg1.win 2).blk t).view.read (Elt Ideal) (featOf (V c main_v3)) := by
  show (cfg1.win 2).cut (grid1.coords t) ((dat1 V c).after 2 t) = _
  rw [after1_2]
  unfold out1_2
  rw [View.canon_unit_zero hz2]
  simp only [View.ld_unit_zero (S := S256x16x128) hz3, View.ld_unit_zero (S := S64x16x128) hz3]
  obtain ⟨e0, e1, e2, e3, e4, e5, e6, e7⟩ := idx_facts1 t
  funext j
  show pay1 (F := Ideal) (iblk1 V c 0 t) (iblk1 V c 1 t) ((cfg1.win 2).xinj (grid1.coords t) j)
    = featOf (V c main_v3) (((cfg1.win 2).blk t).view.emb j)
  refine pay1_block (V c main_v3) (iblk1 V c 0 t) (iblk1 V c 1 t) t.val (funext fun y => ?_) (fun r k o hr => ?_)
    ((cfg1.win 2).xinj (grid1.coords t) j) (((cfg1.win 2).blk t).view.emb j) ?_ ?_
  · show V c main_v3 (((cfg1.win 0).blk t).view.emb y) = V c main_v3 y
    refine congrArg (V c main_v3) (funext fun a => Fin.ext ?_)
    match a with
    | ⟨0, _⟩ => show win1_0.index t (0 : Fin 3) * 256 + 1 * (y 0).val = (y 0).val; rw [e0]; omega
    | ⟨1, _⟩ => show win1_0.index t (1 : Fin 3) * 16 + 1 * (y 1).val = (y 1).val; rw [e1]; omega
    | ⟨2, _⟩ => show win1_0.index t (2 : Fin 3) * 128 + 1 * (y 2).val = (y 2).val; rw [e2]; omega
  · show V c main_v3 (((cfg1.win 1).blk t).view.emb (ix3 r k o)) = V c main_v3 (ix3 ⟨t.val * 64 + r.val, hr⟩ k o)
    refine congrArg (V c main_v3) (funext fun a => Fin.ext ?_)
    match a with
    | ⟨0, _⟩ => show win1_1.index t (0 : Fin 3) * 64 + 1 * r.val = t.val * 64 + r.val; rw [e3]; omega
    | ⟨1, _⟩ => show win1_1.index t (1 : Fin 3) * 16 + 1 * k.val = k.val; rw [e4]; omega
    | ⟨2, _⟩ => show win1_1.index t (2 : Fin 3) * 128 + 1 * o.val = o.val; rw [e5]; omega
  · show win1_2.index t (0 : Fin 2) * 64 + 1 * (j 0).val = t.val * 64 + (j 0).val; rw [e6]; omega
  · show win1_2.index t (1 : Fin 2) * 128 + 1 * (j 1).val = (j 1).val; rw [e7]; omega

/-- Every row of the feature array lies in some point's block: row `b` in the block of point `b / 64`. -/
theorem cover1 (i : S256x128.Idx) :
    ∃ t : Fin cfg1.N, (cfg1.win 2).flush t = true ∧ i ∈ ((cfg1.win 2).blk t).view.set := by
  have h0 : (i 0).val < 256 := (i 0).isLt
  have h1 : (i 1).val < 128 := (i 1).isLt
  obtain ⟨t, ht⟩ : ∃ t : Fin cfg1.N, t.val = (i 0).val / 64 :=
    ⟨⟨(i 0).val / 64, by rw [show cfg1.N = 4 from N_1]; omega⟩, rfl⟩
  obtain ⟨e0, e1, e2, e3, e4, e5, e6, e7⟩ := idx_facts1 t
  refine ⟨t, flush1_2 t, ?_⟩
  show i ∈ ((View.whole main_v4).slice (win1_2.rect t)).set
  rw [View.set_slice_whole, Rect.mem_set_unit]
  intro a
  match a with
  | ⟨0, _⟩ => show win1_2.index t (0 : Fin 2) * 64 ≤ (i 0).val ∧ (i 0).val < win1_2.index t (0 : Fin 2) * 64 + 64; rw [e6, ht]; omega
  | ⟨1, _⟩ => show win1_2.index t (1 : Fin 2) * 128 ≤ (i 1).val ∧ (i 1).val < win1_2.index t (1 : Fin 2) * 128 + 128; rw [e7]; omega

/-- The second region's output array after its run: the feature array of the table array as the region finds it. -/
theorem final1_arr (c : Dev nD) : (dat1 V c).arrAt 2 cfg1.N = featOf (V c main_v3) :=
  (dat1 V c).arrAt_eq_of_cover 2 (featOf (V c main_v3)) (fun t _ => flushed1_eq V c t) cover1

/-- The feature array of a table array `M`, read at `(b, o)`. -/
theorem featOf_ix2 (M : S256x16x128.Idx → EReal) (b : Fin 256) (o : Fin 128) :
    featOf M (ix2 b o) = ∑ a : Fin 256, Ideal.exp (-(∑ k : Fin 16,
      max (M (ix3 b k o) - M (ix3 a k o)) (-(M (ix3 b k o) - M (ix3 a k o))))) := rfl

/-- The second region's output array after its run, read at `(b, o)`, with the table array the region finds named `M`. -/
theorem final1 (c : Dev nD) (M : S256x16x128.Idx → EReal) (hM : (V c main_v3 : S256x16x128.Idx → EReal) = M)
    (b : Fin 256) (o : Fin 128) :
    (dat1 V c).arrAt 2 cfg1.N (ix2 b o)
      = ∑ a : Fin 256, Ideal.exp (-(∑ k : Fin 16,
          max (M (ix3 b k o) - M (ix3 a k o)) (-(M (ix3 b k o) - M (ix3 a k o))))) := by
  subst hM
  rw [final1_arr V c]
  rfl

end Region1

end Cert.KernelIdeal.Hand

end
-- ==== Proof.Spec.lean ====
/-
  The function both programs compute, over the extended reals.

  From an input x of shape [256, 512] and a weight T of shape [512, 128, 16], every row a of x is projected to a
  128 x 16 table  proj a o k = sum over i of x (a, i) * T (i, o, k).  Two rows b and a are compared, per output
  channel o, by the sum over the 16 table columns k of |proj b o k - proj a o k|; the feature of row b at channel o
  is the sum over ALL rows a of exp (-(that distance)).  The result is x with the [256, 128] feature array appended
  along the second axis.  The absolute value is written max d (-d), the extended reals' own.
-/
import Idealize.ShloMosaic.PureOps.Ideal
import Idealize.ShloMosaic.Lib.ValueIdx

noncomputable section

open scoped BigOperators

namespace Cert.Spec

open Idealize.ShloMosaic Idealize.ShloMosaic.ValueIdx

/-- Row `a` of `x` projected by `T`: entry `(o, k)` of its 128 x 16 table. -/
def proj (x : FVec Ideal ⟨2, ![256, 512]⟩ .f32) (T : FVec Ideal ⟨3, ![512, 128, 16]⟩ .f32)
    (a : Fin 256) (o : Fin 128) (k : Fin 16) : EReal :=
  ∑ i : Fin 512, x (ix2 a i) * T (ix3 i o k)

/-- The distance between the tables of rows `b` and `a` at channel `o`: the sum over the 16 columns of the
    absolute differences. -/
def dist (x : FVec Ideal ⟨2, ![256, 512]⟩ .f32) (T : FVec Ideal ⟨3, ![512, 128, 16]⟩ .f32)
    (b a : Fin 256) (o : Fin 128) : EReal :=
  ∑ k : Fin 16, max (proj x T b o k - proj x T a o k) (-(proj x T b o k - proj x T a o k))

/-- The feature array: at `(b, o)` the sum over all rows `a` of `exp (-(dist b a o))`. -/
def feat (x : FVec Ideal ⟨2, ![256, 512]⟩ .f32) (T : FVec Ideal ⟨3, ![512, 128, 16]⟩ .f32) :
    FVec Ideal ⟨2, ![256, 128]⟩ .f32 :=
  fun j => ∑ a : Fin 256, Ideal.exp (-(dist x T (j 0) a (j 1)))

end Cert.Spec

end
-- ==== Proof.KIGlue.lean ====
/-
  The kernel program's result is the specification's, at the ideal instance.

  The table array the pairwise region reads is, entry (a, k, o), the product region's output at (a, k*128 + o): the sum
  over i of x (a, i) times the transposed-and-flattened weight at (i, k*128 + o), which is T (i, o, k) — the
  specification's projection of row a at (o, k).  The pairwise region's output at (b, o) is then the sum over all rows
  a of exp (-(the sum over the 16 columns of the absolute differences of rows b and a)): the specification's feature.
-/
import proofs.«159068_j12850542149933_1_alg».proof.Proof.KIEnd
import proofs.«159068_j12850542149933_1_alg».proof.Proof.KIValue
import proofs.«159068_j12850542149933_1_alg».proof.Proof.KIPayAt
import proofs.«159068_j12850542149933_1_alg».proof.Proof.Spec

noncomputable section

open scoped BigOperators

namespace Cert.KernelIdeal.Hand

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The table array's entry (a, k, o) is the specification's projection of row a at (o, k). -/
theorem table_at (c : Dev nD) (M : S256x16x128.Idx → EReal) (hM : (V3 m c main_v3 : S256x16x128.Idx → EReal) = M)
    (a : Fin 256) (k : Fin 16) (o : Fin 128) :
    M (ix3 a k o) = Cert.Spec.proj (m ((c : Thread nD τ).loc main_arg0)) (m ((c : Thread nD τ).loc main_arg1)) a o k := by
  subst hM
  rw [V3_main_v3, m3_at, W2_main_v2, final0, pay0_at, V1_main_arg0]
  unfold Cert.Spec.proj
  refine Finset.sum_congr rfl fun i _ => ?_
  rw [V1_main_v1, t2_at]

/-- The features of the table array are the specification's. -/
theorem featOf_table (c : Dev nD) :
    featOf (V3 m c main_v3) = Cert.Spec.feat (m ((c : Thread nD τ).loc main_arg0)) (m ((c : Thread nD τ).loc main_arg1)) := by
  funext j
  obtain ⟨b, o, rfl⟩ : ∃ (b : Fin 256) (o : Fin 128), j = ix2 b o := ⟨j 0, j 1, eq_ix2 j⟩
  rw [featOf_ix2]
  unfold Cert.Spec.feat Cert.Spec.dist
  simp only [table_at m c (V3 m c main_v3) rfl]

end Cert.KernelIdeal.Hand

end
-- ==== Proof.RefSide.lean ====
/-
  The reference side: what the reference program computes is the specification.

  The reference flattens the weight T [512, 128, 16] to [512, 2048] (entry (i, o, k) at column o * 16 + k of row i),
  multiplies x [256, 512] by it, and folds the product back to [256, 128, 16]: entry (a, o, k) is
  sum over i of x (a, i) * T (i, o, k), the specification's `proj a o k` (`v2_at`). Two broadcasts of that table to
  [256, 256, 128, 16] — one along a new leading axis, one along a new second axis — are subtracted, so the entry
  (a, b, o, k) of the difference is `proj b o k - proj a o k`; its absolute value is summed over k, negated,
  exponentiated, and summed over the LEADING axis a, both sums from zero. At (b, o) that is the sum over all rows a of
  exp (-(dist b a o)), the specification's `feat` (`ref_feat`). `ref_run` restates the reference's run with that
  array named.
-/
import proofs.«159068_j12850542149933_1_alg».proof.Defs
import proofs.«159068_j12850542149933_1_alg».proof.Proof.Gen.ReferenceIdeal.Run
import proofs.«159068_j12850542149933_1_alg».proof.Proof.Gen.ReferenceIdeal.Read
import proofs.«159068_j12850542149933_1_alg».proof.Proof.Spec
import proofs.«159068_j12850542149933_1_alg».proof.Proof.LibMatmulAt

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-- The reshaped product read at `(a, o, k)` is row `a`'s projection table at `(o, k)`: the reshape
    [256, 2048] -> [256, 128, 16] reads column `o * 16 + k` of row `a` of the product, and the reshape
    [512, 128, 16] -> [512, 2048] of the weight puts its entry `(i, o, k)` at that same column of row `i`. -/
theorem v2_at (x : (⟨S256x512, .f32⟩ : BufTy).Contents (Elt Ideal)) (T : (⟨S512x128x16, .f32⟩ : BufTy).Contents (Elt Ideal))
    (a : Fin 256) (o : Fin 128) (k : Fin 16) :
    val_main_v2 (F := Ideal) x T (ix3 a o k) = Cert.Spec.proj x T a o k := by
  rw [val_main_v2_apply, val_main_v1_apply]
  unfold Cert.Spec.proj
  refine Finset.sum_congr rfl fun i _ => ?_
  rw [val_main_v0_apply]
  have ha : a.val < 256 := a.isLt
  have ho : o.val < 128 := o.isLt
  have hk : k.val < 16 := k.isLt
  have hi : i.val < 512 := i.isLt
  have el : lidx_main_v1 (idx_main_v2 (ix3 a o k)) i = ix2 a i := funext fun ax => Fin.ext (by
    match ax with
    | ⟨0, _⟩ => show ((a.val * 128 + o.val) * 16 + k.val) / 2048 = a.val; omega
    | ⟨1, _⟩ => rfl)
  have er : idx_main_v0 (ridx_main_v1 (idx_main_v2 (ix3 a o k)) i) = ix3 i o k := funext fun ax => Fin.ext (by
    match ax with
    | ⟨0, _⟩ => show (i.val * 2048 + ((a.val * 128 + o.val) * 16 + k.val) % 2048) / 2048 = i.val; omega
    | ⟨1, _⟩ => show (i.val * 2048 + ((a.val * 128 + o.val) * 16 + k.val) % 2048) / 16 % 128 = o.val; omega
    | ⟨2, _⟩ => show (i.val * 2048 + ((a.val * 128 + o.val) * 16 + k.val) % 2048) % 16 = k.val; omega)
  rw [el, er]

/-- The reference's feature array is the specification's. At `(b, o)` the last reduction sums, over the leading
    axis `a` of the [256, 256, 128] array, `exp (-(d a b o))` with `d a b o` the sum over `k` of the absolute value
    of the difference of the two broadcasts at `(a, b, o, k)`: the first broadcast (a new leading axis) reads the
    table of row `b`, the second (a new second axis) the table of row `a`; so the difference is
    `proj b o k - proj a o k`, and the summed row `a` is the specification's. Both initial values are zero. -/
theorem ref_feat (x : (⟨S256x512, .f32⟩ : BufTy).Contents (Elt Ideal)) (T : (⟨S512x128x16, .f32⟩ : BufTy).Contents (Elt Ideal)) :
    val_main_v12 (F := Ideal) x T = Cert.Spec.feat x T := by
  funext j
  obtain ⟨b, o, rfl⟩ : ∃ b o, j = ix2 b o := ⟨j 0, j 1, eq_ix2 j⟩
  rw [val_main_v12_apply, val_main_cst_0_apply, Ideal.ofBits_def, Ideal.ofBits_zero_f32, zero_add]
  show _ = ∑ a : Fin 256, Ideal.exp (-(Cert.Spec.dist x T b a o))
  refine Finset.sum_congr rfl fun a _ => ?_
  rw [val_main_v11_apply, val_main_v10_apply, val_main_v9_apply, val_main_cst_apply, Ideal.ofBits_def,
    Ideal.ofBits_zero_f32, zero_add, Ideal.hostUnary_exp_def, Ideal.hostNegf_def, Ideal.negf_def]
  unfold Cert.Spec.dist
  refine congrArg (fun t => Ideal.exp (-t)) (Finset.sum_congr rfl fun k _ => ?_)
  rw [val_main_v8_apply, val_main_v7_apply, val_main_v5_apply, val_main_v6_apply, val_main_v3_apply, val_main_v4_apply]
  have e1 : idx_main_v3 (idx_main_v5 (idx_main_v9 (idx_main_v12 (ix2 b o) a) k)) = ix3 b o k := funext fun ax => Fin.ext (by
    match ax with
    | ⟨0, _⟩ => rfl
    | ⟨1, _⟩ => rfl
    | ⟨2, _⟩ => rfl)
  have e2 : idx_main_v4 (idx_main_v6 (idx_main_v9 (idx_main_v12 (ix2 b o) a) k)) = ix3 a o k := funext fun ax => Fin.ext (by
    match ax with
    | ⟨0, _⟩ => rfl
    | ⟨1, _⟩ => rfl
    | ⟨2, _⟩ => rfl)
  rw [e1, e2, v2_at, v2_at, Ideal.hostAbsf_def, Ideal.absf_def, Ideal.subf_def]

/-- The reference's run with the specification named: on every device, from any memory with zero counters, every
    weakly fair execution terminates with the result buffer holding the input `x` joined along the second axis with
    `Cert.Spec.feat x T`, and with the two argument buffers unchanged. The generated run gives the result as the
    operations' composed term of the arguments; its second piece is the last reduction's value, which is the
    specification's feature array (`ref_feat`); the join itself is never opened. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v13)
          = concatenate S256x640 1 [⟨S256x512, m' ((c.tc : Thread nD τ).loc main_arg0)⟩,
              ⟨S256x128, Cert.Spec.feat (m' ((c.tc : Thread nD τ).loc main_arg0)) (m' ((c.tc : Thread nD τ).loc main_arg1))⟩]
              concatenates_S256x512_S256x128_S256x640_d1
      ∧ r.2.mem ((c.tc : Thread nD τ).loc main_arg0) = m' ((c.tc : Thread nD τ).loc main_arg0)
      ∧ r.2.mem ((c.tc : Thread nD τ).loc main_arg1) = m' ((c.tc : Thread nD τ).loc main_arg1)) := by
  refine (θ_run defs _ _).mono (fun _ h c => ⟨(h c).1.trans ?_, (h c).2⟩) (Cert.ReferenceIdeal.Value.run (F := Ideal) m' ρ')
  exact congrArg
    (fun v : (⟨S256x128, .f32⟩ : BufTy).Contents (Elt Ideal) =>
      concatenate S256x640 1 [⟨S256x512, m' ((c.tc : Thread nD τ).loc main_arg0)⟩, ⟨S256x128, v⟩]
        concatenates_S256x512_S256x128_S256x640_d1)
    (ref_feat (m' ((c.tc : Thread nD τ).loc main_arg0)) (m' ((c.tc : Thread nD τ).loc main_arg1)))

end Cert.ReferenceIdeal.RefValue

end
-- ==== Proof.lean ====
/-
  The five claims, assembled.

  Both programs compute, from x of shape [256, 512] and T of shape [512, 128, 16], the array x with a [256, 128]
  feature array appended: row a of x is projected by T to a 128 x 16 table, and the feature of row b at channel o is
  the sum over all rows a of exp (-(the sum over the 16 table columns of |table b - table a| at channel o)).  The
  kernel program computes the tables by one matrix product on the device (over the weight with its last two axes
  swapped) and the features by a second device region that walks the rows in four blocks of 64, adding the sixteen
  columns' absolute differences one after the other; the reference does the same with whole-array operations.  Over
  the extended reals the two differ only in the order and grouping of finite sums, in where the two small axes of the
  table sit, and in writing 0 - s for -s: no law used needs finiteness, so the precondition is never opened.

  Frames: each program's run is read to the end with every buffer's contents named; the arguments are written by no
  operation.  The idealized kernel is the kernel's own text read at the ideal instance, so there is nothing to
  preserve.
-/
import proofs.«159068_j12850542149933_1_alg».proof.Defs
import proofs.«159068_j12850542149933_1_alg».proof.Proof.KEnd
import proofs.«159068_j12850542149933_1_alg».proof.Proof.KIGlue
import proofs.«159068_j12850542149933_1_alg».proof.Proof.RefSide
import proofs.«159068_j12850542149933_1_alg».proof.Proof.Gen.Kernel
import proofs.«159068_j12850542149933_1_alg».proof.Proof.Gen.KernelIdeal
import proofs.«159068_j12850542149933_1_alg».proof.Proof.Gen.ReferenceIdeal
import proofs.«159068_j12850542149933_1_alg».proof.Proof.Gen.Pre_finite_inputs
import Idealize.ShloMosaic.Adequacy
import Idealize.ShloMosaic.Init

noncomputable section

namespace Cert.Proof

open Idealize.ShloMosaic Idealize.ShloMosaic.TcCoe Idealize.SL.Sem

/-- The word-level kernel program runs to the end and leaves its arguments as launched. -/
theorem frame_k : Cert.frame_Kernel := fun m ρ _ =>
  (θ_run (Cert.Kernel.defs (F := Bits)) _ _).mono (fun r h c =>
    ⟨(h c _ (Cert.Kernel.Hand.mem_uc Cert.Kernel.main_arg0 (by decide))).trans (Cert.Kernel.Hand.W5_main_arg0 m c),
      (h c _ (Cert.Kernel.Hand.mem_uc Cert.Kernel.main_arg1 (by decide))).trans (Cert.Kernel.Hand.W5_main_arg1 m c)⟩)
    (Cert.Kernel.Hand.run m ρ)

/-- So does the idealized kernel program. -/
theorem frame_ki : Cert.frame_KernelIdeal := fun m ρ _ =>
  (θ_run (Cert.KernelIdeal.defs (F := Ideal)) _ _).mono (fun r h c =>
    ⟨(h c _ (Cert.KernelIdeal.Hand.mem_uc Cert.KernelIdeal.main_arg0 (by decide))).trans (Cert.KernelIdeal.Hand.W5_main_arg0 m c),
      (h c _ (Cert.KernelIdeal.Hand.mem_uc Cert.KernelIdeal.main_arg1 (by decide))).trans (Cert.KernelIdeal.Hand.W5_main_arg1 m c)⟩)
    (Cert.KernelIdeal.Hand.run m ρ)

/-- And the reference: its run with the result dropped. -/
theorem frame_ri : Cert.frame_ReferenceIdeal := fun m ρ _ =>
  (θ_run (Cert.ReferenceIdeal.defs (F := Ideal)) _ _).mono (fun _ h c => (h c).2) (Cert.ReferenceIdeal.Value.run (F := Ideal) m ρ)

/-- The ideal pass rewrote no operation. -/
theorem preserves : Cert.preserves_Kernel_KernelIdeal := trivial

/-- At the ideal instance, from memories agreeing on the arguments, both programs end with the first argument with
    the specification's feature array appended. -/
theorem algebraic : Cert.algebraic_KernelIdeal_ReferenceIdeal := by
  intro m ρ m' ρ' _ hagree
  refine ⟨fun c => concatenate Cert.KernelIdeal.S256x640 1
      [⟨Cert.KernelIdeal.S256x512, m ((c.tc : Thread Cert.KernelIdeal.nD Cert.KernelIdeal.τ).loc Cert.KernelIdeal.main_arg0)⟩,
        ⟨Cert.KernelIdeal.S256x128, Cert.Spec.feat (m ((c.tc : Thread Cert.KernelIdeal.nD Cert.KernelIdeal.τ).loc Cert.KernelIdeal.main_arg0))
          (m ((c.tc : Thread Cert.KernelIdeal.nD Cert.KernelIdeal.τ).loc Cert.KernelIdeal.main_arg1))⟩]
      Cert.KernelIdeal.Facts₀.concatenates_S256x512_S256x128_S256x640_d1, ?_, ?_⟩
  · refine (θ_run (Cert.KernelIdeal.defs (F := Ideal)) _ _).mono (fun r h c => ⟨?_, ?_, ?_⟩) (Cert.KernelIdeal.Hand.run m ρ)
    · refine (h c _ (Cert.KernelIdeal.Hand.mem_uc Cert.KernelIdeal.main_v5 (by decide))).trans ((Cert.KernelIdeal.Hand.W5_main_v5 m c).trans ?_)
      rw [Cert.KernelIdeal.Hand.final1_arr, Cert.KernelIdeal.Hand.featOf_table m c]
    · exact (h c _ (Cert.KernelIdeal.Hand.mem_uc Cert.KernelIdeal.main_arg0 (by decide))).trans (Cert.KernelIdeal.Hand.W5_main_arg0 m c)
    · exact (h c _ (Cert.KernelIdeal.Hand.mem_uc Cert.KernelIdeal.main_arg1 (by decide))).trans (Cert.KernelIdeal.Hand.W5_main_arg1 m c)
  · refine (θ_run (Cert.ReferenceIdeal.defs (F := Ideal)) _ _).mono (fun r h c => ⟨(h c).1.trans ?_, (h c).2.1, (h c).2.2⟩)
      (Cert.ReferenceIdeal.RefValue.ref_run m' ρ')
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
